-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S262144x24 : Shape := ⟨2, ![262144, 24]⟩
abbrev S256 : Shape := ⟨1, ![256]⟩
abbrev S256x24 : Shape := ⟨2, ![256, 24]⟩
abbrev S22x24 : Shape := ⟨2, ![22, 24]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S262144 : S_.BroadcastsInDim S262144 (![] : Fin 0 → Fin S262144.rank)
  reducesTo_S262144_S_d0 : S262144.ReducesTo [0] S_
  bcast_S_S262144x24 : S_.BroadcastsInDim S262144x24 (![] : Fin 0 → Fin S262144x24.rank)
  reducesTo_S262144x24_S_d0_1 : S262144x24.ReducesTo [0, 1] S_
  bcast_S_S256 : S_.BroadcastsInDim S256 (![] : Fin 0 → Fin S256.rank)
  reducesTo_S256_S_d0 : S256.ReducesTo [0] S_
  bcast_S_S256x24 : S_.BroadcastsInDim S256x24 (![] : Fin 0 → Fin S256x24.rank)
  reducesTo_S256x24_S_d0_1 : S256x24.ReducesTo [0, 1] S_
  bcast_S_S22x24 : S_.BroadcastsInDim S22x24 (![] : Fin 0 → Fin S22x24.rank)
  reducesTo_S22x24_S_d0_1 : S22x24.ReducesTo [0, 1] S_

variable [Facts]

def fn_part2 {F : FTy → Type} [FloatOps F] (main_arg7 : FVec F S22x24 .f32) (main_arg8 : FVec F S256 .f32) (main_v33 : IVec S_ 1) : IVec S_ 1 :=
  let main_v34 : FVec F S22x24 .f32 := Host.absf main_arg7
  let main_cst_12 : FVec F S_ .f32 := constant S_ .f32 0x7F800000#32
  let main_v35 : FVec F S22x24 .f32 := broadcastInDim S22x24 ![] bcast_S_S22x24 main_cst_12
  let main_v36 : IVec S22x24 1 := cmpf .olt main_v34 main_v35
  let main_c_13 : IVec S_ 1 := constantI S_ 1 1#1
  let main_v37 : IVec S_ 1 := (fun x v => Host.reduce IntOp.andi x v reducesTo_S22x24_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256 .f32) (main_arg6 : FVec F S256x24 .f32) (main_arg7 : FVec F S22x24 .f32) (main_arg8 : FVec F S256 .f32) (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x24 .f32 := Host.absf main_arg6
  let main_cst_10 : FVec F S_ .f32 := constant S_ .f32 0x7F800000#32
  let main_v30 : FVec F S256x24 .f32 := broadcastInDim S256x24 ![] bcast_S_S256x24 main_cst_10
  let main_v31 : IVec S256x24 1 := cmpf .olt main_v29 main_v30
  let main_c_11 : IVec S_ 1 := constantI S_ 1 1#1
  let main_v32 : IVec S_ 1 := (fun x v => Host.reduce IntOp.andi x v reducesTo_S256x24_S_d0_1 h_S_) main_v31 main_c_11
  let main_v33 : IVec S_ 1 := andi main_v28 main_v32
  fn_part2 (F := F) main_arg7 main_arg8 main_v33

def fn {F : FTy → Type} [FloatOps F] (main_arg0 : FVec F S262144x256 .f32) (main_arg1 : FVec F S262144 .f32) (main_arg2 : FVec F S262144x24 .f32) (main_arg3 : FVec F S262144 .f32) (main_arg4 : FVec F S256 .f32) (main_arg5 : FVec F S256 .f32) (main_arg6 : FVec F S256x24 .f32) (main_arg7 : FVec F S22x24 .f32) (main_arg8 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S262144x24 .f32 := Host.absf main_arg2
  let main_cst_2 : FVec F S_ .f32 := constant S_ .f32 0x7F800000#32
  let main_v10 : FVec F S262144x24 .f32 := broadcastInDim S262144x24 ![] bcast_S_S262144x24 main_cst_2
  let main_v11 : IVec S262144x24 1 := cmpf .olt main_v9 main_v10
  let main_c_3 : IVec S_ 1 := constantI S_ 1 1#1
  let main_v12 : IVec S_ 1 := (fun x v => Host.reduce IntOp.andi x v reducesTo_S262144x24_S_d0_1 h_S_) main_v11 main_c_3
  let main_v13 : IVec S_ 1 := andi main_v8 main_v12
  let main_v14 : FVec F S262144 .f32 := Host.absf main_arg3
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_arg4 main_arg5 main_arg6 main_arg7 main_arg8 main_v13 main_v16
-- ==== Kernel.lean ====
abbrev S262144x256 : Shape := ⟨2, ![262144, 256]⟩
abbrev S262144 : Shape := ⟨1, ![262144]⟩
abbrev S262144x24 : Shape := ⟨2, ![262144, 24]⟩
abbrev S256 : Shape := ⟨1, ![256]⟩
abbrev S256x24 : Shape := ⟨2, ![256, 24]⟩
abbrev S22x24 : Shape := ⟨2, ![22, 24]⟩
abbrev S24x256 : Shape := ⟨2, ![24, 256]⟩
abbrev S24x22 : Shape := ⟨2, ![24, 22]⟩
abbrev S1x256 : Shape := ⟨2, ![1, 256]⟩
abbrev S262144x1 : Shape := ⟨2, ![262144, 1]⟩
abbrev S1x1 : Shape := ⟨2, ![1, 1]⟩
abbrev S1024x256 : Shape := ⟨2, ![1024, 256]⟩
abbrev S1024x1 : Shape := ⟨2, ![1024, 1]⟩
abbrev S1024x24 : Shape := ⟨2, ![1024, 24]⟩
abbrev S1024x22 : Shape := ⟨2, ![1024, 22]⟩
abbrev S1024 : Shape := ⟨1, ![1024]⟩
abbrev S1 : Shape := ⟨1, ![1]⟩
abbrev S_ : Shape := ⟨0, ![]⟩

abbrev nBuf : Space → Nat
  | .hbm => 19
  | .vmem => 16
  | .smem => 0
  | _ => 0

abbrev bufTy : (tb : Table) → Fin (tcTables nBuf tb) → BufTy
  | .hbm, ⟨0, _⟩ => ⟨S262144x256, .f32⟩
  | .hbm, ⟨1, _⟩ => ⟨S262144, .f32⟩
  | .hbm, ⟨2, _⟩ => ⟨S262144x24, .f32⟩
  | .hbm, ⟨3, _⟩ => ⟨S262144, .f32⟩
  | .hbm, ⟨4, _⟩ => ⟨S256, .f32⟩
  | .hbm, ⟨5, _⟩ => ⟨S256, .f32⟩
  | .hbm, ⟨6, _⟩ => ⟨S256x24, .f32⟩
  | .hbm, ⟨7, _⟩ => ⟨S22x24, .f32⟩
  | .hbm, ⟨8, _⟩ => ⟨S256, .f32⟩
  | .hbm, ⟨9, _⟩ => ⟨S24x256, .f32⟩
  | .hbm, ⟨10, _⟩ => ⟨S24x22, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S262144x1, .f32⟩
  | .hbm, ⟨15, _⟩ => ⟨S262144x1, .f32⟩
  | .hbm, ⟨16, _⟩ => ⟨S1x1, .f32⟩
  | .hbm, ⟨17, _⟩ => ⟨S262144x256, .f32⟩
  | .hbm, ⟨18, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x1, .f32⟩
  | .local _ .vmem, ⟨3, _⟩ => ⟨S1024x1, .f32⟩
  | .local _ .vmem, ⟨4, _⟩ => ⟨S1024x24, .f32⟩
  | .local _ .vmem, ⟨5, _⟩ => ⟨S1024x24, .f32⟩
  | .local _ .vmem, ⟨6, _⟩ => ⟨S1024x1, .f32⟩
  | .local _ .vmem, ⟨7, _⟩ => ⟨S1024x1, .f32⟩
  | .local _ .vmem, ⟨8, _⟩ => ⟨S1x256, .f32⟩
  | .local _ .vmem, ⟨9, _⟩ => ⟨S1x256, .f32⟩
  | .local _ .vmem, ⟨10, _⟩ => ⟨S24x256, .f32⟩
  | .local _ .vmem, ⟨11, _⟩ => ⟨S24x22, .f32⟩
  | .local _ .vmem, ⟨12, _⟩ => ⟨S1x256, .f32⟩
  | .local _ .vmem, ⟨13, _⟩ => ⟨S1x1, .f32⟩
  | .local _ .vmem, ⟨14, _⟩ => ⟨S1024x256, .f32⟩
  | .local _ .vmem, ⟨15, _⟩ => ⟨S1024x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x22 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S256x24_S24x256_1_0 : S256x24.Transposes [1, 0] S24x256
  transposes_S22x24_S24x22_1_0 : S22x24.Transposes [1, 0] S24x22
  shapeCasts_S256_S1x256 : S256.ShapeCasts S1x256
  shapeCasts_S262144_S262144x1 : S262144.ShapeCasts S262144x1
  inb_S1x1_S1x1_0_0 : ∀ a, (![0, 0] : Fin 2 → Nat) a + S1x1.size a ≤ S1x1.size a
  h_S1x1 : 0 < S1x1.numel
  inb_S1024x24_S1024x24_0_0 : ∀ a, (![0, 0] : Fin 2 → Nat) a + S1024x24.size a ≤ S1024x24.size a
  h_S1024x24 : 0 < S1024x24.numel
  bitsLt_bf16_f32 : FTy.bits .bf16 < FTy.bits .f32
  inb_S24x256_S24x256_0_0 : ∀ a, (![0, 0] : Fin 2 → Nat) a + S24x256.size a ≤ S24x256.size a
  h_S24x256 : 0 < S24x256.numel
  shapeCasts_S24x256_S24x256 : S24x256.ShapeCasts S24x256
  inb_S24x22_S24x22_0_0 : ∀ a, (![0, 0] : Fin 2 → Nat) a + S24x22.size a ≤ S24x22.size a
  h_S24x22 : 0 < S24x22.numel
  shapeCasts_S24x22_S24x22 : S24x22.ShapeCasts S24x22
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  reduces_S1024x1_S1 : S1024x1.Reduces [0] S1
  shapeCasts_S1_S1x1 : S1.ShapeCasts S1x1
  reduces_S1024x22_S1024 : S1024x22.Reduces [1] S1024
  shapeCasts_S1x1_S1x1 : S1x1.ShapeCasts S1x1
  shapeCasts_S1x1_S_ : S1x1.ShapeCasts S_
  dot_S1024x24_S24x256_S1024x256_1_0_0_1_n_n_wf : DotDims.WF S1024x24 S24x256 S1024x256 [1] [0] [0] [1] [] []
  dot_S1024x24_S24x22_S1024x22_1_0_0_1_n_n_wf : DotDims.WF S1024x24 S24x22 S1024x22 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S262144x256.size a
  hwx0_0 : ∀ i : grid0.Coords, EltTy.bits .f32 = 32 ∨ (Rect.block (s := S262144x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S262144x1.size a
  hwx0_1 : ∀ i : grid0.Coords, EltTy.bits .f32 = 32 ∨ (Rect.block (s := S262144x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x24.size a ≤ S262144x24.size a
  hwx0_2 : ∀ i : grid0.Coords, EltTy.bits .f32 = 32 ∨ (Rect.block (s := S262144x24) S1024x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S262144x1.size a
  hwx0_3 : ∀ i : grid0.Coords, EltTy.bits .f32 = 32 ∨ (Rect.block (s := S262144x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x256.size a ≤ S24x256.size a
  hwx0_6 : ∀ i : grid0.Coords, EltTy.bits .f32 = 32 ∨ (Rect.block (s := S24x256) S24x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S24x22.size a ≤ S24x22.size a
  hwx0_7 : ∀ i : grid0.Coords, EltTy.bits .f32 = 32 ∨ (Rect.block (s := S24x22) S24x22.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S262144x256.size a
  hwx0_10 : ∀ i : grid0.Coords, EltTy.bits .f32 = 32 ∨ (Rect.block (s := S262144x256) S1024x256.size (cc0_transform_10 i) (hinb0_10 i)).WholeWords (EltTy.packing .f32)

variable [Facts₀]

def dot_S1024x24_S24x256_S1024x256_1_0_0_1_n_n : DotDims S1024x24 S24x256 S1024x256 where
  lhsContracting := [1]
  rhsContracting := [0]
  lhsNonContracting := [0]
  rhsNonContracting := [1]
  lhsBatch := []
  rhsBatch := []
  wf := dot_S1024x24_S24x256_S1024x256_1_0_0_1_n_n_wf
def dot_S1024x24_S24x22_S1024x22_1_0_0_1_n_n : DotDims S1024x24 S24x22 S1024x22 where
  lhsContracting := [1]
  rhsContracting := [0]
  lhsNonContracting := [0]
  rhsNonContracting := [1]
  lhsBatch := []
  rhsBatch := []
  wf := dot_S1024x24_S24x22_S1024x22_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x24.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S24x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S24x22.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7_0) S1x1.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7_1) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S262144x24 : Shape := ⟨2, ![262144, 24]⟩
abbrev S256 : Shape := ⟨1, ![256]⟩
abbrev S256x24 : Shape := ⟨2, ![256, 24]⟩
abbrev S22x24 : Shape := ⟨2, ![22, 24]⟩
abbrev S24x256 : Shape := ⟨2, ![24, 256]⟩
abbrev S1x256 : Shape := ⟨2, ![1, 256]⟩
abbrev S_ : Shape := ⟨0, ![]⟩
abbrev S262144x1 : Shape := ⟨2, ![262144, 1]⟩
abbrev S24x22 : Shape := ⟨2, ![24, 22]⟩
abbrev S262144x22 : Shape := ⟨2, ![262144, 22]⟩

abbrev nBuf : Space → Nat
  | .hbm => 95
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .f32⟩
  | .hbm, ⟨2, _⟩ => ⟨S262144x24, .f32⟩
  | .hbm, ⟨3, _⟩ => ⟨S262144, .f32⟩
  | .hbm, ⟨4, _⟩ => ⟨S256, .f32⟩
  | .hbm, ⟨5, _⟩ => ⟨S256, .f32⟩
  | .hbm, ⟨6, _⟩ => ⟨S256x24, .f32⟩
  | .hbm, ⟨7, _⟩ => ⟨S22x24, .f32⟩
  | .hbm, ⟨8, _⟩ => ⟨S256, .f32⟩
  | .hbm, ⟨9, _⟩ => ⟨S24x256, .f32⟩
  | .hbm, ⟨10, _⟩ => ⟨S262144x256, .f32⟩
  | .hbm, ⟨11, _⟩ => ⟨S1x256, .f32⟩
  | .hbm, ⟨12, _⟩ => ⟨S_, .f32⟩
  | .hbm, ⟨13, _⟩ => ⟨S1x256, .f32⟩
  | .hbm, ⟨14, _⟩ => ⟨S1x256, .f32⟩
  | .hbm, ⟨15, _⟩ => ⟨S262144x1, .f32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S262144x256, .f32⟩
  | .hbm, ⟨26, _⟩ => ⟨S262144x256, .f32⟩
  | .hbm, ⟨27, _⟩ => ⟨S262144x256, .f32⟩
  | .hbm, ⟨28, _⟩ => ⟨S262144x1, .f32⟩
  | .hbm, ⟨29, _⟩ => ⟨S1x256, .f32⟩
  | .hbm, ⟨30, _⟩ => ⟨S262144x256, .f32⟩
  | .hbm, ⟨31, _⟩ => ⟨S262144x256, .f32⟩
  | .hbm, ⟨32, _⟩ => ⟨S262144x256, .f32⟩
  | .hbm, ⟨33, _⟩ => ⟨S_, .f32⟩
  | .hbm, ⟨34, _⟩ => ⟨S262144x1, .f32⟩
  | .hbm, ⟨35, _⟩ => ⟨S262144x1, .f32⟩
  | .hbm, ⟨36, _⟩ => ⟨S1x256, .f32⟩
  | .hbm, ⟨37, _⟩ => ⟨S262144x256, .f32⟩
  | .hbm, ⟨38, _⟩ => ⟨S262144x256, .f32⟩
  | .hbm, ⟨39, _⟩ => ⟨S262144x256, .f32⟩
  | .hbm, ⟨40, _⟩ => ⟨S262144x256, .f32⟩
  | .hbm, ⟨41, _⟩ => ⟨S262144x256, .f32⟩
  | .hbm, ⟨42, _⟩ => ⟨S_, .f32⟩
  | .hbm, ⟨43, _⟩ => ⟨S262144x256, .f32⟩
  | .hbm, ⟨44, _⟩ => ⟨S262144x256, .f32⟩
  | .hbm, ⟨45, _⟩ => ⟨S262144x256, .f32⟩
  | .hbm, ⟨46, _⟩ => ⟨S262144x256, .f32⟩
  | .hbm, ⟨47, _⟩ => ⟨S262144x256, .f32⟩
  | .hbm, ⟨48, _⟩ => ⟨S262144x256, .f32⟩
  | .hbm, ⟨49, _⟩ => ⟨S_, .f32⟩
  | .hbm, ⟨50, _⟩ => ⟨S262144, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S24x22, .f32⟩
  | .hbm, ⟨56, _⟩ => ⟨S262144x22, .f32⟩
  | .hbm, ⟨57, _⟩ => ⟨S262144x22, .f32⟩
  | .hbm, ⟨58, _⟩ => ⟨S_, .f32⟩
  | .hbm, ⟨59, _⟩ => ⟨S262144, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S262144x256, .f32⟩
  | .hbm, ⟨68, _⟩ => ⟨S262144x256, .f32⟩
  | .hbm, ⟨69, _⟩ => ⟨S_, .f32⟩
  | .hbm, ⟨70, _⟩ => ⟨S262144x256, .f32⟩
  | .hbm, ⟨71, _⟩ => ⟨S262144x256, .f32⟩
  | .hbm, ⟨72, _⟩ => ⟨S_, .f32⟩
  | .hbm, ⟨73, _⟩ => ⟨S262144, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S262144x256, .f32⟩
  | .hbm, ⟨80, _⟩ => ⟨S262144x256, .f32⟩
  | .hbm, ⟨81, _⟩ => ⟨S_, .f32⟩
  | .hbm, ⟨82, _⟩ => ⟨S262144x256, .f32⟩
  | .hbm, ⟨83, _⟩ => ⟨S262144x256, .f32⟩
  | .hbm, ⟨84, _⟩ => ⟨S_, .f32⟩
  | .hbm, ⟨85, _⟩ => ⟨S262144, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_cst_12 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_cst_14 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_cst_16 : Ref sig .tc := ⟨.hbm, 86, rfl⟩
abbrev main_v56 : Ref sig .tc := ⟨.hbm, 87, rfl⟩
abbrev main_cst_17 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_18 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  transposes_S256x24_S24x256_1_0 : S256x24.Transposes [1, 0] S24x256
  bcast_S256_S1x256_1 : S256.BroadcastsInDim S1x256 (![1] : Fin 1 → Fin S1x256.rank)
  bcast_S_S1x256 : S_.BroadcastsInDim S1x256 (![] : Fin 0 → Fin S1x256.rank)
  bcast_S262144_S262144x1_0 : S262144.BroadcastsInDim S262144x1 (![0] : Fin 1 → Fin S262144x1.rank)
  bcast_S1x256_S262144x256_0_1 : S1x256.BroadcastsInDim S262144x256 (![0, 1] : Fin 2 → Fin S262144x256.rank)
  bcast_S262144x1_S262144x256_0_1 : S262144x1.BroadcastsInDim S262144x256 (![0, 1] : Fin 2 → Fin S262144x256.rank)
  bcast_S_S262144x1 : S_.BroadcastsInDim S262144x1 (![] : Fin 0 → Fin S262144x1.rank)
  bcast_S_S262144x256 : S_.BroadcastsInDim S262144x256 (![] : Fin 0 → Fin S262144x256.rank)
  reducesTo_S262144x256_S262144_d1 : S262144x256.ReducesTo [1] S262144
  h_S_ : 0 < S_.numel
  reducesTo_S262144_S_d0 : S262144.ReducesTo [0] S_
  transposes_S22x24_S24x22_1_0 : S22x24.Transposes [1, 0] S24x22
  reducesTo_S262144x22_S262144_d1 : S262144x22.ReducesTo [1] S262144
  dot_S262144x24_S24x256_S262144x256_1_0_0_1_n_n_wf : DotDims.WF S262144x24 S24x256 S262144x256 [1] [0] [0] [1] [] []
  dot_S262144x24_S24x22_S262144x22_1_0_0_1_n_n_wf : DotDims.WF S262144x24 S24x22 S262144x22 [1] [0] [0] [1] [] []

variable [Facts₀]

def dot_S262144x24_S24x256_S262144x256_1_0_0_1_n_n : DotDims S262144x24 S24x256 S262144x256 where
  lhsContracting := [1]
  rhsContracting := [0]
  lhsNonContracting := [0]
  rhsNonContracting := [1]
  lhsBatch := []
  rhsBatch := []
  wf := dot_S262144x24_S24x256_S262144x256_1_0_0_1_n_n_wf
def dot_S262144x24_S24x22_S262144x22_1_0_0_1_n_n : DotDims S262144x24 S24x22 S262144x22 where
  lhsContracting := [1]
  rhsContracting := [0]
  lhsNonContracting := [0]
  rhsNonContracting := [1]
  lhsBatch := []
  rhsBatch := []
  wf := dot_S262144x24_S24x22_S262144x22_1_0_0_1_n_n_wf

class Facts : Prop extends Facts₀ where

variable [Facts]
-- ==== Proof.KBody.lean ====
/-
  What one grid point's body leaves in its two output blocks, as pure functions of the blocks it loads.

  The body stores the whole model block once, and the whole one-by-one accumulator once at its end (at the first
  point after first storing a zero there and reading it back).  So the model block a point leaves is one function
  `modelBlk` of seven input blocks, and the accumulator it leaves is one function `stepBlk` of the nine input
  blocks and of the accumulator it found — the zero block at the first point, the previous point's value later.
-/
import proofs.«160448_j47175920779637_1_alg».proof.Proof.Gen.KernelIdeal.Frame
import Idealize.ShloMosaic.Lib.Pipeline.Value
import Idealize.ShloMosaic.Lib.Tactic

noncomputable section

namespace Cert.KernelIdeal.Body

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The model block: emissivity times the Planck term plus its complement times the ambient term, over the
    temperature, coefficient, view-factor, sky, ground, basis and wavenumber blocks. -/
def modelBlk (x1 : Vec F S1024x1 .f32) (x2 : Vec F S1024x24 .f32) (x3 : Vec F S1024x1 .f32) (x4 x5 : Vec F S1x256 .f32)
    (x6 : Vec F S24x256 .f32) (x8 : Vec F S1x256 .f32) : FVec F S1024x256 .f32 :=
  k0_pay9 (k0_pay4 x2 x6) (k0_pay6 x1 x8) (k0_pay7 x3) (k0_pay8 x4) x5

/-- The accumulator after a point: what it held plus the point's residual, curvature and bound terms. -/
def stepBlk (x0 : Vec F S1024x256 .f32) (x1 : Vec F S1024x1 .f32) (x2 : Vec F S1024x24 .f32) (x3 : Vec F S1024x1 .f32)
    (x4 x5 : Vec F S1x256 .f32) (x6 : Vec F S24x256 .f32) (x7 : Vec F S24x22 .f32) (x8 : Vec F S1x256 .f32)
    (acc : Vec F S1x1 .f32) : FVec F S1x1 .f32 :=
  k0_pay1 (k0_pay10 (k0_pay4 x2 x6) (k0_pay6 x1 x8) (k0_pay7 x3) (k0_pay8 x4) x5 x0) (k0_pay11 (k0_pay5 x2 x7))
    (k0_pay12 (k0_pay4 x2 x6)) (Scalar.ofBits .f32 0x48800000#32) acc

variable (c : Dev nD) (i : grid0.Coords) (a1 : Memref sig .tc .vmem S1024x256 .f32) (h1 : a1.IsWhole) (a2 : Memref sig .tc .vmem S1024x1 .f32) (h2 : a2.IsWhole) (a3 : Memref sig .tc .vmem S1024x24 .f32) (h3 : a3.IsWhole) (a4 : Memref sig .tc .vmem S1024x1 .f32) (h4 : a4.IsWhole) (a5 : Memref sig .tc .vmem S1x256 .f32) (h5 : a5.IsWhole) (a6 : Memref sig .tc .vmem S1x256 .f32) (h6 : a6.IsWhole) (a7 : Memref sig .tc .vmem S24x256 .f32) (h7 : a7.IsWhole) (a8 : Memref sig .tc .vmem S24x22 .f32) (h8 : a8.IsWhole) (a9 : Memref sig .tc .vmem S1x256 .f32) (h9 : a9.IsWhole) (a10 : Memref sig .tc .vmem S1x1 .f32) (h10 : a10.IsWhole) (a11 : Memref sig .tc .vmem S1024x256 .f32) (h11 : a11.IsWhole)
  (x0 : Vec F S1024x256 .f32) (x1 : Vec F S1024x1 .f32) (x2 : Vec F S1024x24 .f32) (x3 : Vec F S1024x1 .f32) (x4 : Vec F S1x256 .f32) (x5 : Vec F S1x256 .f32) (x6 : Vec F S24x256 .f32) (x7 : Vec F S24x22 .f32) (x8 : Vec F S1x256 .f32)

/-- A later point leaves the model block of its input blocks. -/
theorem out_B_10 (hc : ¬cond0_0 i) (xo9 : Vec F S1x1 .f32) :
    out0_B_10 c i a1 h1 a2 h2 a3 h3 a4 h4 a5 h5 a6 h6 a7 h7 a8 h8 a9 h9 a10 h10 a11 h11 hc x0 x1 x2 x3 x4 x5 x6 x7 x8 xo9 = modelBlk x1 x2 x3 x4 x5 x6 x8 := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 x7 x8 xo9)]
  unfold kernelRun0_B
  dsimp only
  sl_unfold_words
  rw [View.canon_unit_zero hz]
  simp only [View.readAt_eq_ld, h2.read_unread, h3.read_unread, h4.read_unread, h5.read_unread, h6.read_unread, h7.read_unread, h9.read_unread,
    View.ld_unit_zero (S := S1024x1) hz, View.ld_unit_zero (S := S1024x24) hz, View.ld_unit_zero (S := S1x256) hz, View.ld_unit_zero (S := S24x256) hz]
  rfl

/-- A later point leaves the accumulator it found plus its own terms. -/
theorem out_B_9 (hc : ¬cond0_0 i) (xo9 : Vec F S1x1 .f32) :
    out0_B_9 c i a1 h1 a2 h2 a3 h3 a4 h4 a5 h5 a6 h6 a7 h7 a8 h8 a9 h9 a10 h10 a11 h11 hc x0 x1 x2 x3 x4 x5 x6 x7 x8 xo9 = stepBlk x0 x1 x2 x3 x4 x5 x6 x7 x8 xo9 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 x7 x8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S1024x256) hz, View.ld_unit_zero (S := S1024x1) hz, View.ld_unit_zero (S := S1024x24) hz, View.ld_unit_zero (S := S1x256) hz, View.ld_unit_zero (S := S24x256) hz, View.ld_unit_zero (S := S24x22) hz, View.ld_unit_zero (S := S1x1) hz]
  rfl

/-- The first point leaves the model block of its input blocks. -/
theorem out_A_10 (hc : cond0_0 i) :
    out0_A_10 c i a1 h1 a2 h2 a3 h3 a4 h4 a5 h5 a6 h6 a7 h7 a8 h8 a9 h9 a10 h10 a11 h11 hc x0 x1 x2 x3 x4 x5 x6 x7 x8 = modelBlk x1 x2 x3 x4 x5 x6 x8 := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_unit_zero hz]
  simp only [View.readAt_eq_ld, h2.read_unread, h3.read_unread, h4.read_unread, h5.read_unread, h6.read_unread, h7.read_unread, h9.read_unread,
    View.ld_unit_zero (S := S1024x1) hz, View.ld_unit_zero (S := S1024x24) hz, View.ld_unit_zero (S := S1x256) hz, View.ld_unit_zero (S := S24x256) hz]
  rfl

/-- The first point leaves the zero block plus its own terms: the zero it stored first is what it read back. -/
theorem out_A_9 (hc : cond0_0 i) :
    out0_A_9 c i a1 h1 a2 h2 a3 h3 a4 h4 a5 h5 a6 h6 a7 h7 a8 h8 a9 h9 a10 h10 a11 h11 hc x0 x1 x2 x3 x4 x5 x6 x7 x8 = stepBlk x0 x1 x2 x3 x4 x5 x6 x7 x8 (k0_pay2 (F := F)) := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6 x7 x8)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h7.read_unread, h8.read_unread, h9.read_unread,
    View.ld_unit_zero (S := S1024x256) hz, View.ld_unit_zero (S := S1024x1) hz, View.ld_unit_zero (S := S1024x24) hz, View.ld_unit_zero (S := S1x256) hz, View.ld_unit_zero (S := S24x256) hz, View.ld_unit_zero (S := S24x22) hz]
  rfl

end Cert.KernelIdeal.Body

end
-- ==== Proof.Spec.lean ====
/-
  The mathematics both programs compute, stated once over the extended reals.

  For every pixel r (262144 of them) and spectral channel c (256):
    emissivity  e(r,c)  = sum over the 24 spline coefficients k of beta[r,k] * phi[c,k]
    Planck term B(r,c)  = (C1 * wav[c]^3) / (exp ((C2 * wav[c]) / T[r]) - 1)
    ambient     X(r,c)  = vf[r] * sky[c] + (1 - vf[r]) * ground[c]
    model       s(r,c)  = e * B + (1 - e) * X
  and the objective is
    mean_r (sum_c (obs - s)^2) + 1/2 * mean_r (sum_j (D beta)[r,j]^2)
      + 10 * (mean_r (sum_c max (lo - e) 0) + mean_r (sum_c max (e - hi) 0)),
  a mean being the sum divided by the number of pixels.  The same objective accumulated tile by tile
  (256 tiles of 1024 pixels) adds, per tile, (tile residual) / n + (1/(2n)) * (tile curvature)
  + (10/n) * (tile bound violations).
-/
import Idealize.ShloMosaic.PureOps.Ideal
import Idealize.ShloMosaic.Lib.ValueIdx

noncomputable section

namespace Cert.Spec

open Idealize.ShloMosaic Idealize.ShloMosaic.ValueIdx

/-- The float words the two programs share, read as extended reals. -/
abbrev Z : EReal := Ideal.ofBits .f32 0x00000000#32
abbrev one : EReal := Ideal.ofBits .f32 0x3F800000#32
abbrev C1 : EReal := Ideal.ofBits .f32 0x324C9E95#32
abbrev C2 : EReal := Ideal.ofBits .f32 0x3FB829D7#32
abbrev lo : EReal := Ideal.ofBits .f32 0x3C23D70A#32
abbrev hi : EReal := Ideal.ofBits .f32 0x3F7D70A4#32
/-- The number of pixels, one half and ten (the reference's words), and the kernel's two folded weights. -/
abbrev npix : EReal := Ideal.ofBits .f32 0x48800000#32
abbrev half : EReal := Ideal.ofBits .f32 0x3F000000#32
abbrev ten : EReal := Ideal.ofBits .f32 0x41200000#32
abbrev wCurv : EReal := Ideal.ofBits .f32 0x36000000#32
abbrev wBound : EReal := Ideal.ofBits .f32 0x38200000#32

section
variable (x0 : (⟨2, ![262144, 256]⟩ : Shape).Idx → EReal) (x1 : (⟨1, ![262144]⟩ : Shape).Idx → EReal)
  (x2 : (⟨2, ![262144, 24]⟩ : Shape).Idx → EReal) (x3 : (⟨1, ![262144]⟩ : Shape).Idx → EReal)
  (x4 x5 : (⟨1, ![256]⟩ : Shape).Idx → EReal) (x6 : (⟨2, ![256, 24]⟩ : Shape).Idx → EReal)
  (x7 : (⟨2, ![22, 24]⟩ : Shape).Idx → EReal) (x8 : (⟨1, ![256]⟩ : Shape).Idx → EReal)

/-- Emissivity of pixel r in channel c: the spline coefficients against the basis. -/
def emis (r : Fin 262144) (c : Fin 256) : EReal := ∑ k : Fin 24, x2 (ix2 r k) * x6 (ix2 c k)

/-- Second differences of pixel r's spline coefficients. -/
def curv (r : Fin 262144) (j : Fin 22) : EReal := ∑ k : Fin 24, x2 (ix2 r k) * x7 (ix2 j k)

/-- Planck radiance of pixel r in channel c. -/
def planck (r : Fin 262144) (c : Fin 256) : EReal :=
  Ideal.div (C1 * (x8 (ix1 c) * (x8 (ix1 c) * x8 (ix1 c))))
    (Ideal.exp (Ideal.div (C2 * x8 (ix1 c)) (x1 (ix1 r))) - one)

/-- Ambient radiance seen by pixel r in channel c. -/
def ambient (r : Fin 262144) (c : Fin 256) : EReal := x3 (ix1 r) * x4 (ix1 c) + (one - x3 (ix1 r)) * x5 (ix1 c)

/-- The modelled spectrum. -/
def model (r : Fin 262144) (c : Fin 256) : EReal :=
  emis x2 x6 r c * planck x1 x8 r c + (one - emis x2 x6 r c) * ambient x3 x4 x5 r c

/-- The modelled spectrum as an array. -/
def modelArr : (⟨2, ![262144, 256]⟩ : Shape).Idx → EReal := fun i => model x1 x2 x3 x4 x5 x6 x8 (i 0) (i 1)

/-- Squared residual of one entry. -/
def sq (r : Fin 262144) (c : Fin 256) : EReal :=
  (x0 (ix2 r c) - model x1 x2 x3 x4 x5 x6 x8 r c) * (x0 (ix2 r c) - model x1 x2 x3 x4 x5 x6 x8 r c)

/-- The four per-pixel sums: residual, curvature, and the two bound violations. -/
def rowRes (r : Fin 262144) : EReal := ∑ c : Fin 256, sq x0 x1 x2 x3 x4 x5 x6 x8 r c
def rowCurv (r : Fin 262144) : EReal := ∑ j : Fin 22, curv x2 x7 r j * curv x2 x7 r j
def rowLo (r : Fin 262144) : EReal := ∑ c : Fin 256, max (lo - emis x2 x6 r c) Z
def rowHi (r : Fin 262144) : EReal := ∑ c : Fin 256, max (emis x2 x6 r c - hi) Z

/-- The objective as the reference spells it: each mean is (zero + sum over pixels of (zero + the pixel's sum)) / n. -/
def total : EReal :=
  (Ideal.div (Z + ∑ r : Fin 262144, (Z + rowRes x0 x1 x2 x3 x4 x5 x6 x8 r)) npix
      + half * Ideal.div (Z + ∑ r : Fin 262144, (Z + rowCurv x2 x7 r)) npix)
    + ten * (Ideal.div (Z + ∑ r : Fin 262144, (Z + rowLo x2 x6 r)) npix
      + Ideal.div (Z + ∑ r : Fin 262144, (Z + rowHi x2 x6 r)) npix)

/-- Pixel p of tile t. -/
abbrev pix (t : Fin 256) (p : Fin 1024) : Fin 262144 := ⟨t.val * 1024 + p.val, by have := t.isLt; have := p.isLt; omega⟩

/-- What tile t adds to the running objective. -/
def tileTerm (t : Fin 256) : EReal :=
  (Ideal.div (∑ p : Fin 1024, rowRes x0 x1 x2 x3 x4 x5 x6 x8 (pix t p)) npix
      + wCurv * ∑ p : Fin 1024, rowCurv x2 x7 (pix t p))
    + wBound * ∑ p : Fin 1024, ∑ c : Fin 256, (max (lo - emis x2 x6 (pix t p) c) Z + max (emis x2 x6 (pix t p) c - hi) Z)

end

end Cert.Spec

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.KRead.lean ====
/-
  The body's arithmetic read entry by entry over the extended reals.

  At the ideal reading a change of float format is the identity, a matrix product into a zero accumulator is the plain
  sum over the contracted coordinate, a lane reduction followed by a sublane reduction is the double sum over the block,
  and a [1,256] row or a [1024,1] column broadcast to the block reads the row at the column index, the column at the row
  index.  So, at row p and channel q of a block:
    emissivity  is  sum_k beta[p,k] * basis[k,q],
    the Planck term is  (C1 * w^3) / (exp ((C2 * w) / T[p]) - 1)  with w = wav[q],
    the model is  e * B + (1 - e) * (vf[p] * sky[q] + (1 - vf[p]) * ground[q]),
  and the accumulator gains  (sum of squared residuals) / n + wCurv * (sum of squared second differences)
  + wBound * (sum of the two bound violations).
-/
import proofs.«160448_j47175920779637_1_alg».proof.Proof.Gen.KernelIdeal.Skeleton
import proofs.«160448_j47175920779637_1_alg».proof.Proof.Spec
import proofs.«160448_j47175920779637_1_alg».proof.Proof.LibKeepdims
import proofs.«160448_j47175920779637_1_alg».proof.Proof.LibMatmulSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockRead

open Idealize.ShloMosaic Idealize.ShloMosaic.ValueIdx
open Cert.KernelIdeal Cert.KernelIdeal.Gen

/-! ## The two products -/

theorem emisDot_l0 (i : S1024x256.Idx) (q : dot_S1024x24_S24x256_S1024x256_1_0_0_1_n_n.contr.Idx) : (dot_S1024x24_S24x256_S1024x256_1_0_0_1_n_n.lhsIdx i q 0).val = (i 0).val := by
  unfold DotDims.lhsIdx
  rw [dif_neg (show ¬(0 : Fin S1024x24.rank) ∈ dot_S1024x24_S24x256_S1024x256_1_0_0_1_n_n.lhsBatch by decide), dif_pos (show (0 : Fin S1024x24.rank) ∈ dot_S1024x24_S24x256_S1024x256_1_0_0_1_n_n.lhsNonContracting by decide)]
  rfl
theorem emisDot_l1 (i : S1024x256.Idx) (q : dot_S1024x24_S24x256_S1024x256_1_0_0_1_n_n.contr.Idx) : (dot_S1024x24_S24x256_S1024x256_1_0_0_1_n_n.lhsIdx i q 1).val = (q ⟨0, by decide⟩).val :=
  dot_S1024x24_S24x256_S1024x256_1_0_0_1_n_n.lhsIdx_val_of_single rfl i q
theorem emisDot_r0 (i : S1024x256.Idx) (q : dot_S1024x24_S24x256_S1024x256_1_0_0_1_n_n.contr.Idx) : (dot_S1024x24_S24x256_S1024x256_1_0_0_1_n_n.rhsIdx i q 0).val = (q ⟨0, by decide⟩).val :=
  dot_S1024x24_S24x256_S1024x256_1_0_0_1_n_n.rhsIdx_val_of_single rfl i q
theorem emisDot_r1 (i : S1024x256.Idx) (q : dot_S1024x24_S24x256_S1024x256_1_0_0_1_n_n.contr.Idx) : (dot_S1024x24_S24x256_S1024x256_1_0_0_1_n_n.rhsIdx i q 1).val = (i 1).val := by
  unfold DotDims.rhsIdx
  rw [dif_neg (show ¬(1 : Fin S24x256.rank) ∈ dot_S1024x24_S24x256_S1024x256_1_0_0_1_n_n.rhsBatch by decide), dif_pos (show (1 : Fin S24x256.rank) ∈ dot_S1024x24_S24x256_S1024x256_1_0_0_1_n_n.rhsNonContracting by decide)]
  rfl

theorem curvDot_l0 (i : S1024x22.Idx) (q : dot_S1024x24_S24x22_S1024x22_1_0_0_1_n_n.contr.Idx) : (dot_S1024x24_S24x22_S1024x22_1_0_0_1_n_n.lhsIdx i q 0).val = (i 0).val := by
  unfold DotDims.lhsIdx
  rw [dif_neg (show ¬(0 : Fin S1024x24.rank) ∈ dot_S1024x24_S24x22_S1024x22_1_0_0_1_n_n.lhsBatch by decide), dif_pos (show (0 : Fin S1024x24.rank) ∈ dot_S1024x24_S24x22_S1024x22_1_0_0_1_n_n.lhsNonContracting by decide)]
  rfl
theorem curvDot_l1 (i : S1024x22.Idx) (q : dot_S1024x24_S24x22_S1024x22_1_0_0_1_n_n.contr.Idx) : (dot_S1024x24_S24x22_S1024x22_1_0_0_1_n_n.lhsIdx i q 1).val = (q ⟨0, by decide⟩).val :=
  dot_S1024x24_S24x22_S1024x22_1_0_0_1_n_n.lhsIdx_val_of_single rfl i q
theorem curvDot_r0 (i : S1024x22.Idx) (q : dot_S1024x24_S24x22_S1024x22_1_0_0_1_n_n.contr.Idx) : (dot_S1024x24_S24x22_S1024x22_1_0_0_1_n_n.rhsIdx i q 0).val = (q ⟨0, by decide⟩).val :=
  dot_S1024x24_S24x22_S1024x22_1_0_0_1_n_n.rhsIdx_val_of_single rfl i q
theorem curvDot_r1 (i : S1024x22.Idx) (q : dot_S1024x24_S24x22_S1024x22_1_0_0_1_n_n.contr.Idx) : (dot_S1024x24_S24x22_S1024x22_1_0_0_1_n_n.rhsIdx i q 1).val = (i 1).val := by
  unfold DotDims.rhsIdx
  rw [dif_neg (show ¬(1 : Fin S24x22.rank) ∈ dot_S1024x24_S24x22_S1024x22_1_0_0_1_n_n.rhsBatch by decide), dif_pos (show (1 : Fin S24x22.rank) ∈ dot_S1024x24_S24x22_S1024x22_1_0_0_1_n_n.rhsNonContracting by decide)]
  rfl

/-- Emissivity of row p in channel q: the row's coefficients against the basis column. -/
theorem emis_apply (x2 : FVec Ideal S1024x24 .f32) (x6 : FVec Ideal S24x256 .f32) (p : Fin 1024) (q : Fin 256) :
    k0_pay4 (F := Ideal) x2 x6 (ix2 p q) = ∑ k : Fin 24, x2 (ix2 p k) * x6 (ix2 k q) := by
  have e6 : shapeCast S24x256 x6 shapeCasts_S24x256_S24x256 = x6 := shapeCast_self _ _
  unfold k0_pay4 k0_pay3
  refine (Cert.GraphConv.matmul_zero_sum dot_S1024x24_S24x256_S1024x256_1_0_0_1_n_n none rfl rfl emisDot_l0 emisDot_l1 emisDot_r0 emisDot_r1 _ _ (ix2 p q)).trans ?_
  refine Finset.sum_congr rfl fun k _ => ?_
  show x2 (ix2 p k) * shapeCast S24x256 x6 shapeCasts_S24x256_S24x256 (ix2 k q) = _
  rw [e6]

/-- Second difference j of row p's coefficients. -/
theorem curv_apply (x2 : FVec Ideal S1024x24 .f32) (x7 : FVec Ideal S24x22 .f32) (p : Fin 1024) (j : Fin 22) :
    k0_pay5 (F := Ideal) x2 x7 (ix2 p j) = ∑ k : Fin 24, x2 (ix2 p k) * x7 (ix2 k j) := by
  have e7 : shapeCast S24x22 x7 shapeCasts_S24x22_S24x22 = x7 := shapeCast_self _ _
  unfold k0_pay5 k0_pay3
  refine (Cert.GraphConv.matmul_zero_sum dot_S1024x24_S24x22_S1024x22_1_0_0_1_n_n none rfl rfl curvDot_l0 curvDot_l1 curvDot_r0 curvDot_r1 _ _ (ix2 p j)).trans ?_
  refine Finset.sum_congr rfl fun k _ => ?_
  show x2 (ix2 p k) * shapeCast S24x22 x7 shapeCasts_S24x22_S24x22 (ix2 k j) = _
  rw [e7]

/-! ## The pointwise terms -/

/-- The Planck term of row p in channel q. -/
theorem planck_apply (x1 : FVec Ideal S1024x1 .f32) (x8 : FVec Ideal S1x256 .f32) (p : Fin 1024) (q : Fin 256) :
    k0_pay6 (F := Ideal) x1 x8 (ix2 p q)
      = Ideal.div (Spec.C1 * (x8 (ix2 (0 : Fin 1) q) * (x8 (ix2 (0 : Fin 1) q) * x8 (ix2 (0 : Fin 1) q))))
          (Ideal.exp (Ideal.div (Spec.C2 * x8 (ix2 (0 : Fin 1) q)) (x1 (ix2 p (0 : Fin 1)))) - Spec.one) := by
  have e1 : shapeCast S1024x1 x1 shapeCasts_S1024x1_S1024x1 = x1 := shapeCast_self _ _
  have e8 : shapeCast S1x256 x8 shapeCasts_S1x256_S1x256 = x8 := shapeCast_self _ _
  unfold k0_pay6
  simp only [e1, e8, divf_apply, subf_apply, exp, broadcast_apply, broadcastTo_1b_ab_apply, Cert.LibKeepdims.broadcastTo_a1_ab_apply, mulf_apply]
  rfl

/-- The model of row p in channel q from the block's emissivity and Planck entries. -/
theorem model_apply (v11 v30 : FVec Ideal S1024x256 .f32) (v32 : FVec Ideal S1024x1 .f32) (v34 x5 : FVec Ideal S1x256 .f32)
    (p : Fin 1024) (q : Fin 256) :
    k0_pay9 (F := Ideal) v11 v30 v32 v34 x5 (ix2 p q)
      = v11 (ix2 p q) * v30 (ix2 p q) + (Spec.one - v11 (ix2 p q))
          * (v32 (ix2 p (0 : Fin 1)) * v34 (ix2 (0 : Fin 1) q) + (Spec.one - v32 (ix2 p (0 : Fin 1))) * x5 (ix2 (0 : Fin 1) q)) := by
  have e5 : shapeCast S1x256 x5 shapeCasts_S1x256_S1x256 = x5 := shapeCast_self _ _
  unfold k0_pay9
  simp only [e5, addf_apply, subf_apply, mulf_apply, broadcast_apply, broadcastTo_1b_ab_apply, Cert.LibKeepdims.broadcastTo_a1_ab_apply]
  rfl

/-! ## A block summed over its lanes, then over its sublanes -/

/-- The two reductions of a jnp.sum over the last axis then over the first, both keeping dimensions, read at the one
    entry of the one-by-one result: the double sum over the block. -/
theorem sumAll_apply {b : ℕ} (src : FVec Ideal ⟨2, ![1024, b]⟩ .f32)
    (hr1 : (⟨2, ![1024, b]⟩ : Shape).Reduces [1] ⟨1, ![1024]⟩) (hφ1 : FKind.Formats .f32)
    (ha1 : (0x00000000#32 : BitVec (FTy.f32).bits) = FKind.add.neutral .f32 hφ1)
    (hc1 : (⟨1, ![1024]⟩ : Shape).ShapeCasts ⟨2, ![1024, 1]⟩)
    (hr0 : (⟨2, ![1024, 1]⟩ : Shape).Reduces [0] ⟨1, ![1]⟩) (hφ0 : FKind.Formats .f32)
    (ha0 : (0x00000000#32 : BitVec (FTy.f32).bits) = FKind.add.neutral .f32 hφ0)
    (hc0 : (⟨1, ![1]⟩ : Shape).ShapeCasts ⟨2, ![1, 1]⟩) :
    shapeCast ⟨2, ![1, 1]⟩ (multiReduction .add [0] ⟨1, ![1]⟩
        (shapeCast ⟨2, ![1024, 1]⟩ (multiReduction .add [1] ⟨1, ![1024]⟩ src 0x00000000#32 hr1 hφ1 ha1) hc1)
        0x00000000#32 hr0 hφ0 ha0) hc0 (ix2 (0 : Fin 1) (0 : Fin 1))
      = ∑ p : Fin 1024, ∑ q : Fin b, src (ix2 p q) := by
  refine (Cert.LibKeepdims.shapeCast_a_a1_apply _ hc0 (0 : Fin 1) (0 : Fin 1)).trans ?_
  refine (Cert.LibKeepdims.add_axis0_apply _ _ hr0 hφ0 ha0 (0 : Fin 1)).trans ?_
  refine Finset.sum_congr rfl fun p _ => ?_
  refine (Cert.LibKeepdims.shapeCast_a_a1_apply _ hc1 p (0 : Fin 1)).trans ?_
  exact Cert.LibKeepdims.add_axis1_apply src _ hr1 hφ1 ha1 p

/-- The tile's sum of squared residuals. -/
theorem res_apply (v11 v30 : FVec Ideal S1024x256 .f32) (v32 : FVec Ideal S1024x1 .f32) (v34 x5 : FVec Ideal S1x256 .f32)
    (x0 : FVec Ideal S1024x256 .f32) :
    k0_pay10 (F := Ideal) v11 v30 v32 v34 x5 x0 (ix2 (0 : Fin 1) (0 : Fin 1))
      = ∑ p : Fin 1024, ∑ q : Fin 256, (x0 (ix2 p q) - k0_pay9 (F := Ideal) v11 v30 v32 v34 x5 (ix2 p q))
          * (x0 (ix2 p q) - k0_pay9 (F := Ideal) v11 v30 v32 v34 x5 (ix2 p q)) := by
  unfold k0_pay10
  exact sumAll_apply (b := 256) _ _ _ _ _ _ _ _ _

/-- The tile's sum of squared second differences. -/
theorem curvSum_apply (v12 : FVec Ideal S1024x22 .f32) :
    k0_pay11 (F := Ideal) v12 (ix2 (0 : Fin 1) (0 : Fin 1)) = ∑ p : Fin 1024, ∑ j : Fin 22, v12 (ix2 p j) * v12 (ix2 p j) := by
  unfold k0_pay11
  exact sumAll_apply (b := 22) _ _ _ _ _ _ _ _ _

/-- The tile's sum of bound violations. -/
theorem bound_apply (v11 : FVec Ideal S1024x256 .f32) :
    k0_pay12 (F := Ideal) v11 (ix2 (0 : Fin 1) (0 : Fin 1))
      = ∑ p : Fin 1024, ∑ q : Fin 256, (max (Spec.lo - v11 (ix2 p q)) Spec.Z + max (v11 (ix2 p q) - Spec.hi) Spec.Z) := by
  unfold k0_pay12
  exact sumAll_apply (b := 256) _ _ _ _ _ _ _ _ _

/-- The accumulator after a point, from what it held and the three tile sums. -/
theorem step_apply (v58 v63 v76 : FVec Ideal S1x1 .f32) (acc : FVec Ideal S1x1 .f32) :
    k0_pay1 (F := Ideal) v58 v63 v76 (Scalar.ofBits .f32 0x48800000#32) acc (ix2 (0 : Fin 1) (0 : Fin 1))
      = acc (ix2 (0 : Fin 1) (0 : Fin 1))
        + ((Ideal.div (v58 (ix2 (0 : Fin 1) (0 : Fin 1))) Spec.npix + Spec.wCurv * v63 (ix2 (0 : Fin 1) (0 : Fin 1)))
          + Spec.wBound * v76 (ix2 (0 : Fin 1) (0 : Fin 1))) := by
  have ea : shapeCast S1x1 acc shapeCasts_S1x1_S1x1 = acc := shapeCast_self _ _
  unfold k0_pay1
  simp only [ea, addf_apply, mulf_apply, divf_apply, broadcast_apply]
  rfl

end Cert.KernelIdeal.BlockRead

end
-- ==== Proof.KBlocks.lean ====
/-
  The blocks a grid point loads, read entry by entry as the program's argument arrays.

  Before the region the program transposes the basis and the second-difference matrix, and reshapes the three channel
  vectors to one row and the two pixel vectors to one column.  Point t (of 256) loads rows t*1024 … t*1024+1023 of the
  observation, coefficient, temperature and view-factor arrays, and the whole of the five small arrays.  So, with
  r = t*1024 + p:
    observation block (p,q) = obs[r,q],   coefficient block (p,k) = beta[r,k],
    temperature block (p,0) = T[r],       view-factor block (p,0) = vf[r],
    sky / ground / wavenumber block (0,q) = the vector at q,
    basis block (k,q) = phi[q,k],         second-difference block (k,j) = D[j,k].
-/
import proofs.«160448_j47175920779637_1_alg».proof.Proof.Gen.KernelIdeal.Frame
import proofs.«160448_j47175920779637_1_alg».proof.Proof.Spec
import proofs.«160448_j47175920779637_1_alg».proof.Proof.LibKeepdims
import Idealize.ShloMosaic.Lib.Pipeline.Value
import Idealize.ShloMosaic.Lib.StableHlo.Run
import Idealize.ShloMosaic.Lib.ValueLayout
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- A grid point as a tile number below 256. -/
abbrev tileOf (t : Fin cfg0.N) : Fin 256 := ⟨t.val, lt_of_lt_of_eq t.isLt (show cfg0.N = 256 from N_0)⟩

/-! ## The arrays the region finds -/

theorem V_basis (c : Dev nD) : (V m c main_v0 : S24x256.Idx → Elt F .f32)
    = transpose S24x256 [1, 0] (m ((c : Thread nD τ).loc main_arg6)) transposes_S256x24_S24x256_1_0 := by
  show StableHlo.after hostOps0 (fun b => m (c, b)) (Proc.devRef .tc main_v0) = _
  after_results

theorem V_diff (c : Dev nD) : (V m c main_v1 : S24x22.Idx → Elt F .f32)
    = transpose S24x22 [1, 0] (m ((c : Thread nD τ).loc main_arg7)) transposes_S22x24_S24x22_1_0 := by
  show StableHlo.after hostOps0 (fun b => m (c, b)) (Proc.devRef .tc main_v1) = _
  after_results

theorem V_sky (c : Dev nD) : (V m c main_v2 : S1x256.Idx → Elt F .f32)
    = shapeCast S1x256 (m ((c : Thread nD τ).loc main_arg4)) shapeCasts_S256_S1x256 := by
  show StableHlo.after hostOps0 (fun b => m (c, b)) (Proc.devRef .tc main_v2) = _
  after_results
  rfl

theorem V_ground (c : Dev nD) : (V m c main_v3 : S1x256.Idx → Elt F .f32)
    = shapeCast S1x256 (m ((c : Thread nD τ).loc main_arg5)) shapeCasts_S256_S1x256 := by
  show StableHlo.after hostOps0 (fun b => m (c, b)) (Proc.devRef .tc main_v3) = _
  after_results
  rfl

theorem V_wav (c : Dev nD) : (V m c main_v4 : S1x256.Idx → Elt F .f32)
    = shapeCast S1x256 (m ((c : Thread nD τ).loc main_arg8)) shapeCasts_S256_S1x256 := by
  show StableHlo.after hostOps0 (fun b => m (c, b)) (Proc.devRef .tc main_v4) = _
  after_results
  rfl

theorem V_temp (c : Dev nD) : (V m c main_v5 : S262144x1.Idx → Elt F .f32)
    = shapeCast S262144x1 (m ((c : Thread nD τ).loc main_arg1)) shapeCasts_S262144_S262144x1 := by
  show StableHlo.after hostOps0 (fun b => m (c, b)) (Proc.devRef .tc main_v5) = _
  after_results
  rfl

theorem V_vf (c : Dev nD) : (V m c main_v6 : S262144x1.Idx → Elt F .f32)
    = shapeCast S262144x1 (m ((c : Thread nD τ).loc main_arg3)) shapeCasts_S262144_S262144x1 := by
  show StableHlo.after hostOps0 (fun b => m (c, b)) (Proc.devRef .tc main_v6) = _
  after_results
  rfl

/-! ## The index maps, decided once over the grid -/

/-- The four pixel-tiled inputs and the model output sit at block (t, 0); the five small inputs and the accumulator at
    block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

/-! ## The blocks at explicit coordinates -/

theorem obs_apply (c : Dev nD) (t : Fin cfg0.N) (p : Fin 1024) (q : Fin 256) :
    (iblk m c 0 t : Vec F S1024x256 .f32) (ix2 p q) = m ((c : Thread nD τ).loc main_arg0) (ix2 (Spec.pix (tileOf t) p) q) := by
  obtain ⟨⟨e0, e1⟩, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 256 + 1 * q.val = q.val; rw [e1]; omega

theorem beta_apply (c : Dev nD) (t : Fin cfg0.N) (p : Fin 1024) (k : Fin 24) :
    (iblk m c 2 t : Vec F S1024x24 .f32) (ix2 p k) = m ((c : Thread nD τ).loc main_arg2) (ix2 (Spec.pix (tileOf t) p) k) := by
  obtain ⟨-, -, ⟨e0, e1⟩, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 1024 + 1 * p.val = t.val * 1024 + p.val; rw [e0]; omega
  | ⟨1, _⟩ => show win0_2.index t (1 : Fin 2) * 24 + 1 * k.val = k.val; rw [e1]; omega

theorem temp_apply (c : Dev nD) (t : Fin cfg0.N) (p : Fin 1024) :
    (iblk m c 1 t : Vec F S1024x1 .f32) (ix2 p (0 : Fin 1)) = m ((c : Thread nD τ).loc main_arg1) (ix1 (Spec.pix (tileOf t) p)) := by
  obtain ⟨-, ⟨e0, e1⟩, -⟩ := idx_facts t
  unfold iblk
  rw [View.read_apply]
  show V m c main_v5 _ = _
  rw [V_temp]
  refine Eq.trans (congrArg _ (funext fun a => Fin.ext ?_)) (Cert.LibKeepdims.shapeCast_a_a1_apply _ shapeCasts_S262144_S262144x1 (Spec.pix (tileOf t) p) (0 : Fin 1))
  match a with
  | ⟨0, _⟩ => show win0_1.index t (0 : Fin 2) * 1024 + 1 * p.val = t.val * 1024 + p.val; rw [e0]; omega
  | ⟨1, _⟩ => show win0_1.index t (1 : Fin 2) * 1 + 1 * 0 = 0; rw [e1]

theorem vf_apply (c : Dev nD) (t : Fin cfg0.N) (p : Fin 1024) :
    (iblk m c 3 t : Vec F S1024x1 .f32) (ix2 p (0 : Fin 1)) = m ((c : Thread nD τ).loc main_arg3) (ix1 (Spec.pix (tileOf t) p)) := by
  obtain ⟨-, -, -, ⟨e0, e1⟩, -⟩ := idx_facts t
  unfold iblk
  rw [View.read_apply]
  show V m c main_v6 _ = _
  rw [V_vf]
  refine Eq.trans (congrArg _ (funext fun a => Fin.ext ?_)) (Cert.LibKeepdims.shapeCast_a_a1_apply _ shapeCasts_S262144_S262144x1 (Spec.pix (tileOf t) p) (0 : Fin 1))
  match a with
  | ⟨0, _⟩ => show win0_3.index t (0 : Fin 2) * 1024 + 1 * p.val = t.val * 1024 + p.val; rw [e0]; omega
  | ⟨1, _⟩ => show win0_3.index t (1 : Fin 2) * 1 + 1 * 0 = 0; rw [e1]

theorem sky_apply (c : Dev nD) (t : Fin cfg0.N) (q : Fin 256) :
    (iblk m c 4 t : Vec F S1x256 .f32) (ix2 (0 : Fin 1) q) = m ((c : Thread nD τ).loc main_arg4) (ix1 q) := by
  obtain ⟨-, -, -, -, ⟨e0, e1⟩, -⟩ := idx_facts t
  unfold iblk
  rw [View.read_apply]
  show V m c main_v2 _ = _
  rw [V_sky]
  refine Eq.trans (congrArg _ (funext fun a => Fin.ext ?_)) (shapeCast_a_1a_apply _ shapeCasts_S256_S1x256 (0 : Fin 1) q)
  match a with
  | ⟨0, _⟩ => show win0_4.index t (0 : Fin 2) * 1 + 1 * 0 = 0; rw [e0]
  | ⟨1, _⟩ => show win0_4.index t (1 : Fin 2) * 256 + 1 * q.val = q.val; rw [e1]; omega

theorem ground_apply (c : Dev nD) (t : Fin cfg0.N) (q : Fin 256) :
    (iblk m c 5 t : Vec F S1x256 .f32) (ix2 (0 : Fin 1) q) = m ((c : Thread nD τ).loc main_arg5) (ix1 q) := by
  obtain ⟨-, -, -, -, -, ⟨e0, e1⟩, -⟩ := idx_facts t
  unfold iblk
  rw [View.read_apply]
  show V m c main_v3 _ = _
  rw [V_ground]
  refine Eq.trans (congrArg _ (funext fun a => Fin.ext ?_)) (shapeCast_a_1a_apply _ shapeCasts_S256_S1x256 (0 : Fin 1) q)
  match a with
  | ⟨0, _⟩ => show win0_5.index t (0 : Fin 2) * 1 + 1 * 0 = 0; rw [e0]
  | ⟨1, _⟩ => show win0_5.index t (1 : Fin 2) * 256 + 1 * q.val = q.val; rw [e1]; omega

theorem wav_apply (c : Dev nD) (t : Fin cfg0.N) (q : Fin 256) :
    (iblk m c 8 t : Vec F S1x256 .f32) (ix2 (0 : Fin 1) q) = m ((c : Thread nD τ).loc main_arg8) (ix1 q) := by
  obtain ⟨-, -, -, -, -, -, -, -, ⟨e0, e1⟩, -⟩ := idx_facts t
  unfold iblk
  rw [View.read_apply]
  show V m c main_v4 _ = _
  rw [V_wav]
  refine Eq.trans (congrArg _ (funext fun a => Fin.ext ?_)) (shapeCast_a_1a_apply _ shapeCasts_S256_S1x256 (0 : Fin 1) q)
  match a with
  | ⟨0, _⟩ => show win0_8.index t (0 : Fin 2) * 1 + 1 * 0 = 0; rw [e0]
  | ⟨1, _⟩ => show win0_8.index t (1 : Fin 2) * 256 + 1 * q.val = q.val; rw [e1]; omega

theorem basis_apply (c : Dev nD) (t : Fin cfg0.N) (k : Fin 24) (q : Fin 256) :
    (iblk m c 6 t : Vec F S24x256 .f32) (ix2 k q) = m ((c : Thread nD τ).loc main_arg6) (ix2 q k) := by
  obtain ⟨-, -, -, -, -, -, ⟨e0, e1⟩, -⟩ := idx_facts t
  unfold iblk
  rw [View.read_apply]
  show V m c main_v0 _ = _
  rw [V_basis]
  refine Eq.trans (congrArg _ (funext fun a => Fin.ext ?_)) (transpose_ix2_apply _ transposes_S256x24_S24x256_1_0 k q)
  match a with
  | ⟨0, _⟩ => show win0_6.index t (0 : Fin 2) * 24 + 1 * k.val = k.val; rw [e0]; omega
  | ⟨1, _⟩ => show win0_6.index t (1 : Fin 2) * 256 + 1 * q.val = q.val; rw [e1]; omega

theorem diff_apply (c : Dev nD) (t : Fin cfg0.N) (k : Fin 24) (j : Fin 22) :
    (iblk m c 7 t : Vec F S24x22 .f32) (ix2 k j) = m ((c : Thread nD τ).loc main_arg7) (ix2 j k) := by
  obtain ⟨-, -, -, -, -, -, -, ⟨e0, e1⟩, -⟩ := idx_facts t
  unfold iblk
  rw [View.read_apply]
  show V m c main_v1 _ = _
  rw [V_diff]
  refine Eq.trans (congrArg _ (funext fun a => Fin.ext ?_)) (transpose_ix2_apply _ transposes_S22x24_S24x22_1_0 k j)
  match a with
  | ⟨0, _⟩ => show win0_7.index t (0 : Fin 2) * 24 + 1 * k.val = k.val; rw [e0]; omega
  | ⟨1, _⟩ => show win0_7.index t (1 : Fin 2) * 22 + 1 * j.val = j.val; rw [e1]; omega

end Cert.KernelIdeal.Blocks

end
-- ==== Proof.KChain.lean ====
/-
  The accumulator across the grid, and each point's model block, as the specification's terms.

  With the blocks a point loads read as the argument arrays at the point's pixels, the model block's entry (p,q) at
  point t is the modelled spectrum of pixel t*1024+p in channel q, and the accumulator after a point is what it held
  plus that tile's term of the objective.  The first point starts from the zero it stores, every later point from what
  the point before left; so after point n the accumulator is zero plus the sum of the terms of tiles 0 … n, by
  induction on the point.
-/
import proofs.«160448_j47175920779637_1_alg».proof.Proof.KBody
import proofs.«160448_j47175920779637_1_alg».proof.Proof.KRead
import proofs.«160448_j47175920779637_1_alg».proof.Proof.KBlocks
import proofs.«160448_j47175920779637_1_alg».proof.Proof.Spec

noncomputable section

namespace Cert.KernelIdeal.Chain

open Idealize.ShloMosaic Idealize.ShloMosaic.TcCoe Idealize.SL.Sem Idealize.ShloMosaic.ValueIdx
open Cert.KernelIdeal Cert.KernelIdeal.Gen

/-! ## One tile, over any blocks that read the arrays at the tile's pixels -/

theorem emis_entry (x0 : FVec Ideal S1024x256 .f32) (x1 : FVec Ideal S1024x1 .f32) (x2 : FVec Ideal S1024x24 .f32) (x3 : FVec Ideal S1024x1 .f32) (x4 x5 : FVec Ideal S1x256 .f32) (x6 : FVec Ideal S24x256 .f32) (x7 : FVec Ideal S24x22 .f32) (x8 : FVec Ideal S1x256 .f32) (a0 : (⟨2, ![262144, 256]⟩ : Shape).Idx → EReal) (a1 : (⟨1, ![262144]⟩ : Shape).Idx → EReal) (a2 : (⟨2, ![262144, 24]⟩ : Shape).Idx → EReal) (a3 : (⟨1, ![262144]⟩ : Shape).Idx → EReal) (a4 a5 : (⟨1, ![256]⟩ : Shape).Idx → EReal) (a6 : (⟨2, ![256, 24]⟩ : Shape).Idx → EReal) (a7 : (⟨2, ![22, 24]⟩ : Shape).Idx → EReal) (a8 : (⟨1, ![256]⟩ : Shape).Idx → EReal) (T : Fin 256)
    (h2 : ∀ (p : Fin 1024) (k : Fin 24), x2 (ix2 p k) = a2 (ix2 (Spec.pix T p) k)) (h6 : ∀ (k : Fin 24) (q : Fin 256), x6 (ix2 k q) = a6 (ix2 q k)) (p : Fin 1024) (q : Fin 256) :
    k0_pay4 (F := Ideal) x2 x6 (ix2 p q) = Spec.emis a2 a6 (Spec.pix T p) q := by
  rw [BlockRead.emis_apply]
  unfold Spec.emis
  exact Finset.sum_congr rfl fun k _ => by rw [h2, h6]

theorem curv_entry (x0 : FVec Ideal S1024x256 .f32) (x1 : FVec Ideal S1024x1 .f32) (x2 : FVec Ideal S1024x24 .f32) (x3 : FVec Ideal S1024x1 .f32) (x4 x5 : FVec Ideal S1x256 .f32) (x6 : FVec Ideal S24x256 .f32) (x7 : FVec Ideal S24x22 .f32) (x8 : FVec Ideal S1x256 .f32) (a0 : (⟨2, ![262144, 256]⟩ : Shape).Idx → EReal) (a1 : (⟨1, ![262144]⟩ : Shape).Idx → EReal) (a2 : (⟨2, ![262144, 24]⟩ : Shape).Idx → EReal) (a3 : (⟨1, ![262144]⟩ : Shape).Idx → EReal) (a4 a5 : (⟨1, ![256]⟩ : Shape).Idx → EReal) (a6 : (⟨2, ![256, 24]⟩ : Shape).Idx → EReal) (a7 : (⟨2, ![22, 24]⟩ : Shape).Idx → EReal) (a8 : (⟨1, ![256]⟩ : Shape).Idx → EReal) (T : Fin 256)
    (h2 : ∀ (p : Fin 1024) (k : Fin 24), x2 (ix2 p k) = a2 (ix2 (Spec.pix T p) k)) (h7 : ∀ (k : Fin 24) (j : Fin 22), x7 (ix2 k j) = a7 (ix2 j k)) (p : Fin 1024) (j : Fin 22) :
    k0_pay5 (F := Ideal) x2 x7 (ix2 p j) = Spec.curv a2 a7 (Spec.pix T p) j := by
  rw [BlockRead.curv_apply]
  unfold Spec.curv
  exact Finset.sum_congr rfl fun k _ => by rw [h2, h7]

theorem planck_entry (x0 : FVec Ideal S1024x256 .f32) (x1 : FVec Ideal S1024x1 .f32) (x2 : FVec Ideal S1024x24 .f32) (x3 : FVec Ideal S1024x1 .f32) (x4 x5 : FVec Ideal S1x256 .f32) (x6 : FVec Ideal S24x256 .f32) (x7 : FVec Ideal S24x22 .f32) (x8 : FVec Ideal S1x256 .f32) (a0 : (⟨2, ![262144, 256]⟩ : Shape).Idx → EReal) (a1 : (⟨1, ![262144]⟩ : Shape).Idx → EReal) (a2 : (⟨2, ![262144, 24]⟩ : Shape).Idx → EReal) (a3 : (⟨1, ![262144]⟩ : Shape).Idx → EReal) (a4 a5 : (⟨1, ![256]⟩ : Shape).Idx → EReal) (a6 : (⟨2, ![256, 24]⟩ : Shape).Idx → EReal) (a7 : (⟨2, ![22, 24]⟩ : Shape).Idx → EReal) (a8 : (⟨1, ![256]⟩ : Shape).Idx → EReal) (T : Fin 256)
    (h1 : ∀ p : Fin 1024, x1 (ix2 p (0 : Fin 1)) = a1 (ix1 (Spec.pix T p))) (h8 : ∀ q : Fin 256, x8 (ix2 (0 : Fin 1) q) = a8 (ix1 q)) (p : Fin 1024) (q : Fin 256) :
    k0_pay6 (F := Ideal) x1 x8 (ix2 p q) = Spec.planck a1 a8 (Spec.pix T p) q := by
  rw [BlockRead.planck_apply, h1, h8]
  rfl

theorem model_entry (x0 : FVec Ideal S1024x256 .f32) (x1 : FVec Ideal S1024x1 .f32) (x2 : FVec Ideal S1024x24 .f32) (x3 : FVec Ideal S1024x1 .f32) (x4 x5 : FVec Ideal S1x256 .f32) (x6 : FVec Ideal S24x256 .f32) (x7 : FVec Ideal S24x22 .f32) (x8 : FVec Ideal S1x256 .f32) (a0 : (⟨2, ![262144, 256]⟩ : Shape).Idx → EReal) (a1 : (⟨1, ![262144]⟩ : Shape).Idx → EReal) (a2 : (⟨2, ![262144, 24]⟩ : Shape).Idx → EReal) (a3 : (⟨1, ![262144]⟩ : Shape).Idx → EReal) (a4 a5 : (⟨1, ![256]⟩ : Shape).Idx → EReal) (a6 : (⟨2, ![256, 24]⟩ : Shape).Idx → EReal) (a7 : (⟨2, ![22, 24]⟩ : Shape).Idx → EReal) (a8 : (⟨1, ![256]⟩ : Shape).Idx → EReal) (T : Fin 256)
    (h0 : ∀ (p : Fin 1024) (q : Fin 256), x0 (ix2 p q) = a0 (ix2 (Spec.pix T p) q))
    (h1 : ∀ p : Fin 1024, x1 (ix2 p (0 : Fin 1)) = a1 (ix1 (Spec.pix T p)))
    (h2 : ∀ (p : Fin 1024) (k : Fin 24), x2 (ix2 p k) = a2 (ix2 (Spec.pix T p) k))
    (h3 : ∀ p : Fin 1024, x3 (ix2 p (0 : Fin 1)) = a3 (ix1 (Spec.pix T p)))
    (h4 : ∀ q : Fin 256, x4 (ix2 (0 : Fin 1) q) = a4 (ix1 q))
    (h5 : ∀ q : Fin 256, x5 (ix2 (0 : Fin 1) q) = a5 (ix1 q))
    (h6 : ∀ (k : Fin 24) (q : Fin 256), x6 (ix2 k q) = a6 (ix2 q k))
    (h7 : ∀ (k : Fin 24) (j : Fin 22), x7 (ix2 k j) = a7 (ix2 j k))
    (h8 : ∀ q : Fin 256, x8 (ix2 (0 : Fin 1) q) = a8 (ix1 q)) (p : Fin 1024) (q : Fin 256) :
    Body.modelBlk (F := Ideal) x1 x2 x3 x4 x5 x6 x8 (ix2 p q) = Spec.model a1 a2 a3 a4 a5 a6 a8 (Spec.pix T p) q := by
  have e3 : k0_pay7 (F := Ideal) x3 = x3 := shapeCast_self _ _
  have e4 : k0_pay8 (F := Ideal) x4 = x4 := shapeCast_self _ _
  unfold Body.modelBlk
  rw [BlockRead.model_apply, emis_entry x0 x1 x2 x3 x4 x5 x6 x7 x8 a0 a1 a2 a3 a4 a5 a6 a7 a8 T h2 h6 p q,
    planck_entry x0 x1 x2 x3 x4 x5 x6 x7 x8 a0 a1 a2 a3 a4 a5 a6 a7 a8 T h1 h8 p q, e3, e4, h3, h4, h5]
  rfl

/-- The accumulator after a tile: what it held plus the tile's term. -/
theorem step_entry (x0 : FVec Ideal S1024x256 .f32) (x1 : FVec Ideal S1024x1 .f32) (x2 : FVec Ideal S1024x24 .f32) (x3 : FVec Ideal S1024x1 .f32) (x4 x5 : FVec Ideal S1x256 .f32) (x6 : FVec Ideal S24x256 .f32) (x7 : FVec Ideal S24x22 .f32) (x8 : FVec Ideal S1x256 .f32) (a0 : (⟨2, ![262144, 256]⟩ : Shape).Idx → EReal) (a1 : (⟨1, ![262144]⟩ : Shape).Idx → EReal) (a2 : (⟨2, ![262144, 24]⟩ : Shape).Idx → EReal) (a3 : (⟨1, ![262144]⟩ : Shape).Idx → EReal) (a4 a5 : (⟨1, ![256]⟩ : Shape).Idx → EReal) (a6 : (⟨2, ![256, 24]⟩ : Shape).Idx → EReal) (a7 : (⟨2, ![22, 24]⟩ : Shape).Idx → EReal) (a8 : (⟨1, ![256]⟩ : Shape).Idx → EReal) (T : Fin 256)
    (h0 : ∀ (p : Fin 1024) (q : Fin 256), x0 (ix2 p q) = a0 (ix2 (Spec.pix T p) q))
    (h1 : ∀ p : Fin 1024, x1 (ix2 p (0 : Fin 1)) = a1 (ix1 (Spec.pix T p)))
    (h2 : ∀ (p : Fin 1024) (k : Fin 24), x2 (ix2 p k) = a2 (ix2 (Spec.pix T p) k))
    (h3 : ∀ p : Fin 1024, x3 (ix2 p (0 : Fin 1)) = a3 (ix1 (Spec.pix T p)))
    (h4 : ∀ q : Fin 256, x4 (ix2 (0 : Fin 1) q) = a4 (ix1 q))
    (h5 : ∀ q : Fin 256, x5 (ix2 (0 : Fin 1) q) = a5 (ix1 q))
    (h6 : ∀ (k : Fin 24) (q : Fin 256), x6 (ix2 k q) = a6 (ix2 q k))
    (h7 : ∀ (k : Fin 24) (j : Fin 22), x7 (ix2 k j) = a7 (ix2 j k))
    (h8 : ∀ q : Fin 256, x8 (ix2 (0 : Fin 1) q) = a8 (ix1 q)) (acc : FVec Ideal S1x1 .f32) :
    Body.stepBlk (F := Ideal) x0 x1 x2 x3 x4 x5 x6 x7 x8 acc (ix2 (0 : Fin 1) (0 : Fin 1))
      = acc (ix2 (0 : Fin 1) (0 : Fin 1)) + Spec.tileTerm a0 a1 a2 a3 a4 a5 a6 a7 a8 T := by
  have hm : ∀ (p : Fin 1024) (q : Fin 256), k0_pay9 (F := Ideal) (k0_pay4 x2 x6) (k0_pay6 x1 x8) (k0_pay7 x3) (k0_pay8 x4) x5 (ix2 p q) = Spec.model a1 a2 a3 a4 a5 a6 a8 (Spec.pix T p) q :=
    fun p q => model_entry x0 x1 x2 x3 x4 x5 x6 x7 x8 a0 a1 a2 a3 a4 a5 a6 a7 a8 T h0 h1 h2 h3 h4 h5 h6 h7 h8 p q
  have he : ∀ (p : Fin 1024) (q : Fin 256), k0_pay4 (F := Ideal) x2 x6 (ix2 p q) = Spec.emis a2 a6 (Spec.pix T p) q :=
    fun p q => emis_entry x0 x1 x2 x3 x4 x5 x6 x7 x8 a0 a1 a2 a3 a4 a5 a6 a7 a8 T h2 h6 p q
  have hcv : ∀ (p : Fin 1024) (j : Fin 22), k0_pay5 (F := Ideal) x2 x7 (ix2 p j) = Spec.curv a2 a7 (Spec.pix T p) j :=
    fun p j => curv_entry x0 x1 x2 x3 x4 x5 x6 x7 x8 a0 a1 a2 a3 a4 a5 a6 a7 a8 T h2 h7 p j
  have r1 : (∑ p : Fin 1024, ∑ q : Fin 256, (x0 (ix2 p q) - k0_pay9 (F := Ideal) (k0_pay4 x2 x6) (k0_pay6 x1 x8) (k0_pay7 x3) (k0_pay8 x4) x5 (ix2 p q)) * (x0 (ix2 p q) - k0_pay9 (F := Ideal) (k0_pay4 x2 x6) (k0_pay6 x1 x8) (k0_pay7 x3) (k0_pay8 x4) x5 (ix2 p q)))
      = ∑ p : Fin 1024, Spec.rowRes a0 a1 a2 a3 a4 a5 a6 a8 (Spec.pix T p) := by
    refine Finset.sum_congr rfl fun p _ => ?_
    unfold Spec.rowRes
    refine Finset.sum_congr rfl fun q _ => ?_
    unfold Spec.sq
    rw [hm, h0]
  have r2 : (∑ p : Fin 1024, ∑ j : Fin 22, k0_pay5 (F := Ideal) x2 x7 (ix2 p j) * k0_pay5 (F := Ideal) x2 x7 (ix2 p j))
      = ∑ p : Fin 1024, Spec.rowCurv a2 a7 (Spec.pix T p) := by
    refine Finset.sum_congr rfl fun p _ => ?_
    unfold Spec.rowCurv
    refine Finset.sum_congr rfl fun j _ => ?_
    rw [hcv]
  have r3 : (∑ p : Fin 1024, ∑ q : Fin 256, (max (Spec.lo - k0_pay4 (F := Ideal) x2 x6 (ix2 p q)) Spec.Z + max (k0_pay4 (F := Ideal) x2 x6 (ix2 p q) - Spec.hi) Spec.Z))
      = ∑ p : Fin 1024, ∑ q : Fin 256, (max (Spec.lo - Spec.emis a2 a6 (Spec.pix T p) q) Spec.Z + max (Spec.emis a2 a6 (Spec.pix T p) q - Spec.hi) Spec.Z) := by
    refine Finset.sum_congr rfl fun p _ => Finset.sum_congr rfl fun q _ => ?_
    rw [he]
  unfold Body.stepBlk
  rw [BlockRead.step_apply, BlockRead.res_apply, BlockRead.curvSum_apply, BlockRead.bound_apply, r1, r2, r3]
  rfl

/-! ## The points of the grid -/

variable (m : (ℓ : Loc nD τ sig) → Buf (Elt Ideal) ℓ)

/-- The term tile number t adds, zero beyond the grid. -/
def term (c : Dev nD) (t : ℕ) : EReal :=
  if h : t < 256 then Spec.tileTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨t, h⟩ else 0

/-- The model block every point leaves is the model block of its input blocks. -/
theorem outs_model (c : Dev nD) (t : Fin cfg0.N) :
    (outsAt0 m c t.val t.isLt).2 = Body.modelBlk (F := Ideal) (iblk m c 1 t) (iblk m c 2 t) (iblk m c 3 t) (iblk m c 4 t) (iblk m c 5 t) (iblk m c 6 t) (iblk m c 8 t) := by
  by_cases h0 : t.val % 256 = 0
  · rw [outsAt0_A m c t h0]
    dsimp only
    exact Body.out_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) ((hcond0_0 t).mpr h0)
  · rw [outsAt0_B m c t h0]
    dsimp only
    exact Body.out_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (fun h => h0 ((hcond0_0 t).mp h)) _

/-- The model block a point leaves, read at (p, q): the modelled spectrum of the point's pixel p in channel q. -/
theorem model_at (c : Dev nD) (t : Fin cfg0.N) (p : Fin 1024) (q : Fin 256) :
    Body.modelBlk (F := Ideal) (iblk m c 1 t) (iblk m c 2 t) (iblk m c 3 t) (iblk m c 4 t) (iblk m c 5 t) (iblk m c 6 t) (iblk m c 8 t) (ix2 p q)
      = Spec.model (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (Spec.pix (Blocks.tileOf t) p) q :=
  model_entry (iblk m c 0 t) (iblk m c 1 t) (iblk m c 2 t) (iblk m c 3 t) (iblk m c 4 t) (iblk m c 5 t) (iblk m c 6 t) (iblk m c 7 t) (iblk m c 8 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Blocks.tileOf t)
    (Blocks.obs_apply m c t) (Blocks.temp_apply m c t) (Blocks.beta_apply m c t) (Blocks.vf_apply m c t)
    (Blocks.sky_apply m c t) (Blocks.ground_apply m c t) (Blocks.basis_apply m c t) (Blocks.diff_apply m c t)
    (Blocks.wav_apply m c t) p q

/-- One step of the accumulator at a point, from what the point found. -/
theorem step_at (c : Dev nD) (t : Fin cfg0.N) (acc : FVec Ideal S1x1 .f32) :
    Body.stepBlk (F := Ideal) (iblk m c 0 t) (iblk m c 1 t) (iblk m c 2 t) (iblk m c 3 t) (iblk m c 4 t) (iblk m c 5 t) (iblk m c 6 t) (iblk m c 7 t) (iblk m c 8 t) acc (ix2 (0 : Fin 1) (0 : Fin 1))
      = acc (ix2 (0 : Fin 1) (0 : Fin 1)) + term m c t.val := by
  have hN : t.val < 256 := lt_of_lt_of_eq t.isLt (show cfg0.N = 256 from N_0)
  refine (step_entry (iblk m c 0 t) (iblk m c 1 t) (iblk m c 2 t) (iblk m c 3 t) (iblk m c 4 t) (iblk m c 5 t) (iblk m c 6 t) (iblk m c 7 t) (iblk m c 8 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (Blocks.tileOf t)
    (Blocks.obs_apply m c t) (Blocks.temp_apply m c t) (Blocks.beta_apply m c t) (Blocks.vf_apply m c t)
    (Blocks.sky_apply m c t) (Blocks.ground_apply m c t) (Blocks.basis_apply m c t) (Blocks.diff_apply m c t)
    (Blocks.wav_apply m c t) acc).trans ?_
  unfold term
  rw [dif_pos hN]

/-- After point n the accumulator holds zero plus the terms of tiles 0 … n. -/
theorem outs_acc (c : Dev nD) : ∀ (n : ℕ) (h : n < cfg0.N),
    (outsAt0 m c n h).1 (ix2 (0 : Fin 1) (0 : Fin 1)) = Spec.Z + ∑ t ∈ Finset.range (n + 1), term m c t
  | 0, h => by
    rw [outsAt0_A m c ⟨0, h⟩ rfl]
    dsimp only
    refine (congrFun (Body.out_A_9 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) ((hcond0_0 ⟨0, h⟩).mpr rfl)) _).trans ?_
    rw [step_at m c ⟨0, h⟩, Finset.sum_range_one]
    rfl
  | n + 1, h => by
    have hN : n + 1 < 256 := lt_of_lt_of_eq h (show cfg0.N = 256 from N_0)
    have hB : ¬(⟨n + 1, h⟩ : Fin cfg0.N).val % 256 = 0 := by dsimp only; omega
    rw [outsAt0_B m c ⟨n + 1, h⟩ hB]
    dsimp only
    refine (congrFun (Body.out_B_9 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (fun hh => hB ((hcond0_0 ⟨n + 1, h⟩).mp hh)) _) _).trans ?_
    rw [step_at m c ⟨n + 1, h⟩]
    show (outsAt0 m c n _).1 (ix2 (0 : Fin 1) (0 : Fin 1)) + term m c (n + 1) = _
    rw [outs_acc c n, Finset.sum_range_succ (fun t => term m c t) (n + 1), add_assoc]

end Cert.KernelIdeal.Chain

end
-- ==== Proof.Consts.lean ====
/-
  The float words the two programs spell, as the extended reals their bit patterns denote.  One module states
  them all, so that no other module of this proof opens the decoding of a bit pattern.
    0x3F800000 is 1,  0x48800000 is 262144 = 2^18 (the number of pixels),  0x3F000000 is 1/2,  0x41200000 is 10,
    0x36000000 is 2^-19 = 1/(2 * 262144),  0x38200000 is 1.25 * 2^-15 = 10/262144.
-/
import Idealize.ShloMosaic.PureOps.Ideal

noncomputable section

namespace Cert.Consts

open Idealize.ShloMosaic

theorem ofBits_one : Ideal.ofBits .f32 0x3F800000#32 = 1 := by
  simp [Ideal.ofBits, Ideal.ieee, -EReal.coe_mul]; norm_num

theorem ofBits_npix : Ideal.ofBits .f32 0x48800000#32 = ((262144 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_ten : Ideal.ofBits .f32 0x41200000#32 = ((10 : ℝ) : EReal) := by
  simp [Ideal.ofBits, Ideal.ieee, -EReal.coe_mul]; norm_num

theorem ofBits_wCurv : Ideal.ofBits .f32 0x36000000#32 = ((1 / 524288 : ℝ) : EReal) := by
  simp [Ideal.ofBits, Ideal.ieee, -EReal.coe_mul]; norm_num

theorem ofBits_wBound : Ideal.ofBits .f32 0x38200000#32 = ((10 / 262144 : ℝ) : EReal) := by
  simp [Ideal.ofBits, Ideal.ieee, -EReal.coe_mul]; norm_num

end Cert.Consts

end
-- ==== Proof.LibRowBlocks.lean ====
/- General lemmas about a reduction carried block by block.

   A kernel that reduces a long axis in tiles keeps a running value: the first tile combines its own reduction with the
   neutral start, every later tile combines its reduction with what the tile before left. The lemmas below say that the value
   after the last tile is the reduction of all the tiles' reductions, for a sum in any commutative additive monoid (the extended
   reals at the ideal reading of floats) and for a maximum in any join-semilattice, and that a sum over positions
   `a · B + b` of a long axis is the sum over tiles `a` of the sums over positions `b` inside the tile. Nothing here mentions a
   program. -/
import Mathlib.Algebra.BigOperators.Fin
import Mathlib.Data.Finset.Range
import Mathlib.Algebra.BigOperators.Group.Finset.Basic
import Mathlib.Order.Lattice
import Mathlib.Data.Finset.Lattice.Fold
import Mathlib.Logic.Equiv.Fin.Basic

namespace RowBlocks

open Finset

/-- A running sum: `S 0 = z + s 0` and `S (t + 1) = S t + s (t + 1)` up to tile `n` give `S n = z + ∑ t ≤ n, s t`. -/
theorem running_sum {α : Type*} [AddCommMonoid α] (s S : ℕ → α) (z : α) (n : ℕ) (h0 : S 0 = z + s 0)
    (hs : ∀ t, t < n → S (t + 1) = S t + s (t + 1)) : S n = z + ∑ t ∈ range (n + 1), s t := by
  induction n with
  | zero => simpa using h0
  | succ k ih =>
    rw [hs k (Nat.lt_succ_self k), ih fun t ht => hs t (Nat.lt_succ_of_lt ht), sum_range_succ (fun t => s t) (k + 1), add_assoc]

/-- A running maximum: `M 0 = z ⊔ m 0` and `M (t + 1) = M t ⊔ m (t + 1)` up to tile `n` give `M n = z ⊔ sup_{t ≤ n} m t`. -/
theorem running_sup {β : Type*} [SemilatticeSup β] (m M : ℕ → β) (z : β) (n : ℕ) (h0 : M 0 = z ⊔ m 0)
    (hs : ∀ t, t < n → M (t + 1) = M t ⊔ m (t + 1)) : M n = z ⊔ (range (n + 1)).sup' nonempty_range_add_one m := by
  induction n with
  | zero => simpa using h0
  | succ k ih =>
    rw [hs k (Nat.lt_succ_self k), ih fun t ht => hs t (Nat.lt_succ_of_lt ht), sup_assoc]
    congr 1
    apply le_antisymm
    · refine sup_le (sup'_le _ _ fun t ht => le_sup' m (mem_range.mpr (Nat.lt_succ_of_lt (mem_range.mp ht)))) (le_sup' m (mem_range.mpr (Nat.lt_succ_self _)))
    · refine sup'_le _ _ fun t ht => ?_
      rcases Nat.lt_succ_iff_lt_or_eq.mp (mem_range.mp ht) with h | h
      · exact le_sup_of_le_left (le_sup' m (mem_range.mpr h))
      · subst h; exact le_sup_right

/-- A sum over the positions of a long axis of extent `A · B`, position `a · B + b` being position `b` of tile `a`, is the sum
    over the tiles of the sums inside each tile. -/
theorem sum_tiles {α : Type*} [AddCommMonoid α] (A B : ℕ) (f : Fin (A * B) → α) :
    ∑ k : Fin (A * B), f k = ∑ a : Fin A, ∑ b : Fin B, f (finProdFinEquiv (a, b)) := by
  rw [← Fintype.sum_prod_type' (fun a b => f (finProdFinEquiv (a, b)))]
  exact (Equiv.sum_comp finProdFinEquiv f).symm

end RowBlocks
-- ==== Proof.LibERealScale.lean ====
/- General lemmas about scaling a finite sum of extended reals.

   On the extended reals multiplication does not distribute over addition in general (the sum of plus and minus infinity
   is minus infinity), but a FINITE NONNEGATIVE real scalar does distribute over any sum, whatever the terms.  So such a
   scalar moves across a finite sum: a mean is the sum of the terms divided one by one, and a weight folded into each
   tile's partial sum is the weight applied to the whole sum.  Nothing here mentions a program. -/
import Mathlib.Data.EReal.Inv
import Mathlib.Algebra.BigOperators.Group.Finset.Basic

namespace ERealScale

/-- A finite nonnegative real scalar distributes over a finite sum of extended reals. -/
theorem coe_mul_sum {ι : Type*} {k : ℝ} (hk : 0 ≤ k) (s : Finset ι) (f : ι → EReal) :
    (k : EReal) * ∑ i ∈ s, f i = ∑ i ∈ s, (k : EReal) * f i := by
  classical
  induction s using Finset.induction_on with
  | empty => simp
  | insert a s ha ih =>
    rw [Finset.sum_insert ha, Finset.sum_insert ha,
      EReal.left_distrib_of_nonneg_of_ne_top (EReal.coe_nonneg.mpr hk) (EReal.coe_ne_top k), ih]

/-- The same with the scalar on the right. -/
theorem sum_mul_coe {ι : Type*} {k : ℝ} (hk : 0 ≤ k) (s : Finset ι) (f : ι → EReal) :
    (∑ i ∈ s, f i) * (k : EReal) = ∑ i ∈ s, f i * (k : EReal) := by
  rw [mul_comm, coe_mul_sum hk]
  exact Finset.sum_congr rfl fun i _ => mul_comm _ _

end ERealScale
-- ==== Proof.Objective.lean ====
/-
  The objective accumulated tile by tile is the objective as a mean over all pixels.

  Write n = 262144 for the number of pixels and, for the four per-pixel quantities (residual, curvature, and the two bound
  violations), S1, S2, SL, SH for their sums over all pixels.  The reference's objective is
      S1 / n + 1/2 * (S2 / n) + 10 * (SL / n + SH / n),
  while the 256 tiles of 1024 pixels add up
      sum over tiles of ( (tile S1) / n + (1/(2n)) * (tile S2) + (10/n) * (tile SL + tile SH) ).
  Over the extended reals addition and multiplication are commutative and associative, but multiplication distributes over
  addition only for a finite nonnegative scalar.  Every scalar that has to be moved across a sum here (1/n, 1/(2n), 10/n) is such
  a scalar, so the two expressions agree for arbitrary data, infinite entries included.
-/
import proofs.«160448_j47175920779637_1_alg».proof.Proof.Spec
import proofs.«160448_j47175920779637_1_alg».proof.Proof.Consts
import proofs.«160448_j47175920779637_1_alg».proof.Proof.LibRowBlocks
import proofs.«160448_j47175920779637_1_alg».proof.Proof.LibERealScale
import Idealize.ShloMosaic.PureOps.Ideal.Laws

noncomputable section

namespace Cert.Objective

open Cert.Spec Idealize.ShloMosaic ERealScale

/-- The weights agree: with every sum divided by n = 262144, a half of the curvature mean is the curvature sum times 1/(2n),
    and ten times the two bound means is the two bound sums together times 10/n. -/
theorem weights (S1 S2 SL SH : EReal) :
    (S1 * ((1 / 262144 : ℝ) : EReal) + ((1 / 524288 : ℝ) : EReal) * S2) + ((10 / 262144 : ℝ) : EReal) * (SL + SH)
      = (S1 * ((1 / 262144 : ℝ) : EReal) + ((1 / 2 : ℝ) : EReal) * (S2 * ((1 / 262144 : ℝ) : EReal)))
        + ((10 : ℝ) : EReal) * (SL * ((1 / 262144 : ℝ) : EReal) + SH * ((1 / 262144 : ℝ) : EReal)) := by
  have hinv : (0 : EReal) ≤ ((1 / 262144 : ℝ) : EReal) := EReal.coe_nonneg.mpr (by norm_num)
  have h2 : ((1 / 2 : ℝ) : EReal) * (S2 * ((1 / 262144 : ℝ) : EReal)) = ((1 / 524288 : ℝ) : EReal) * S2 := by
    rw [mul_comm S2, ← mul_assoc, ← EReal.coe_mul]
    norm_num
  have h3 : ((10 : ℝ) : EReal) * (SL * ((1 / 262144 : ℝ) : EReal) + SH * ((1 / 262144 : ℝ) : EReal))
      = ((10 / 262144 : ℝ) : EReal) * (SL + SH) := by
    rw [← EReal.right_distrib_of_nonneg_of_ne_top hinv (EReal.coe_ne_top _), mul_comm (SL + SH), ← mul_assoc,
      ← EReal.coe_mul]
    norm_num
  rw [h2, h3]

/-- A sum over all 262144 pixels is the sum over the 256 tiles of the sums over each tile's 1024 pixels. -/
theorem sum_pixels_by_tiles {α : Type*} [AddCommMonoid α] (f : Fin 262144 → α) :
    ∑ r : Fin 262144, f r = ∑ t : Fin 256, ∑ p : Fin 1024, f (pix t p) := by
  refine (RowBlocks.sum_tiles 256 1024 f).trans ?_
  refine Finset.sum_congr rfl fun t _ => Finset.sum_congr rfl fun p _ => ?_
  congr 1
  apply Fin.ext
  rw [finProdFinEquiv_apply_val]
  show p.val + 1024 * t.val = t.val * 1024 + p.val
  omega

/-- The tile-by-tile objective of four abstract per-pixel quantities is their objective as means over all pixels. -/
theorem objective_by_tiles (fR fC fL fH : Fin 262144 → EReal) :
    (0 : EReal) + ∑ t : Fin 256,
        ((Ideal.div (∑ p : Fin 1024, fR (pix t p)) ((262144 : ℝ) : EReal)
            + ((1 / 524288 : ℝ) : EReal) * ∑ p : Fin 1024, fC (pix t p))
          + ((10 / 262144 : ℝ) : EReal) * ∑ p : Fin 1024, (fL (pix t p) + fH (pix t p)))
      = (Ideal.div (0 + ∑ r : Fin 262144, (0 + fR r)) ((262144 : ℝ) : EReal)
            + ((1 / 2 : ℝ) : EReal) * Ideal.div (0 + ∑ r : Fin 262144, (0 + fC r)) ((262144 : ℝ) : EReal))
          + ((10 : ℝ) : EReal) * (Ideal.div (0 + ∑ r : Fin 262144, (0 + fL r)) ((262144 : ℝ) : EReal)
            + Ideal.div (0 + ∑ r : Fin 262144, (0 + fH r)) ((262144 : ℝ) : EReal)) := by
  have hn : (262144 : ℝ) ≠ 0 := by norm_num
  simp only [zero_add, Ideal.div_coe hn]
  rw [← weights, sum_pixels_by_tiles fR, sum_pixels_by_tiles fC, sum_pixels_by_tiles fL, sum_pixels_by_tiles fH,
    Finset.sum_add_distrib, Finset.sum_add_distrib,
    ← sum_mul_coe (by norm_num : (0 : ℝ) ≤ 1 / 262144), ← coe_mul_sum (by norm_num : (0 : ℝ) ≤ 1 / 524288),
    ← coe_mul_sum (by norm_num : (0 : ℝ) ≤ 10 / 262144)]
  simp only [Finset.sum_add_distrib]

section
variable (x0 : (⟨2, ![262144, 256]⟩ : Shape).Idx → EReal) (x1 : (⟨1, ![262144]⟩ : Shape).Idx → EReal)
  (x2 : (⟨2, ![262144, 24]⟩ : Shape).Idx → EReal) (x3 : (⟨1, ![262144]⟩ : Shape).Idx → EReal)
  (x4 x5 : (⟨1, ![256]⟩ : Shape).Idx → EReal) (x6 : (⟨2, ![256, 24]⟩ : Shape).Idx → EReal)
  (x7 : (⟨2, ![22, 24]⟩ : Shape).Idx → EReal) (x8 : (⟨1, ![256]⟩ : Shape).Idx → EReal)

/-- The objective accumulated over the 256 tiles, from the zero start, is the objective as a mean over all pixels. -/
theorem tiles_total :
    Z + ∑ t : Fin 256, tileTerm x0 x1 x2 x3 x4 x5 x6 x7 x8 t = total x0 x1 x2 x3 x4 x5 x6 x7 x8 := by
  have hsplit : ∀ r : Fin 262144,
      ∑ c : Fin 256, (max (lo - emis x2 x6 r c) Z + max (emis x2 x6 r c - hi) Z) = rowLo x2 x6 r + rowHi x2 x6 r :=
    fun r => Finset.sum_add_distrib
  unfold tileTerm total
  simp only [hsplit]
  rw [show Z = (0 : EReal) from Ideal.ofBits_zero_f32, show npix = ((262144 : ℝ) : EReal) from Cert.Consts.ofBits_npix,
    show half = ((1 / 2 : ℝ) : EReal) from Cert.Consts.ofBits_half, show ten = ((10 : ℝ) : EReal) from Cert.Consts.ofBits_ten,
    show wCurv = ((1 / 524288 : ℝ) : EReal) from Cert.Consts.ofBits_wCurv,
    show wBound = ((10 / 262144 : ℝ) : EReal) from Cert.Consts.ofBits_wBound]
  exact objective_by_tiles _ _ _ _

end

end Cert.Objective

end
-- ==== Proof.KValue.lean ====
/-
  What the two result arrays hold after the kernel's run.

  The model array: every point writes its block back, the blocks (rows t*1024 … t*1024+1023, all 256 channels) tile the
  array, and block t is the modelled spectrum of those pixels; so the array ends holding the modelled spectrum.
  The objective: its one-by-one block is written back after the last point only, holding zero plus the terms of all
  256 tiles, which is the objective as a mean over all pixels; the program then reshapes the one-by-one array to a
  scalar, which reads the same entry.
-/
import proofs.«160448_j47175920779637_1_alg».proof.Proof.KChain
import proofs.«160448_j47175920779637_1_alg».proof.Proof.Objective
import Idealize.ShloMosaic.Lib.Pipeline.Value
import Idealize.ShloMosaic.Lib.StableHlo.Run

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The modelled spectrum of the program's arguments, as the contents of the model array. -/
abbrev modelOf (c : Dev nD) : Buf (Elt Ideal) ((c : Thread nD τ).loc main_v7_1) :=
  Spec.modelArr (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8))

/-- The objective of the program's arguments. -/
abbrev totalOf (c : Dev nD) : EReal := Spec.total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The objective as the contents of the one-by-one array. -/
abbrev totalBlk (c : Dev nD) : Buf (Elt Ideal) ((c : Thread nD τ).loc main_v7_0) := fun _ => totalOf m c

/-! ## The model array -/

/-- What point t writes back is block t of the modelled spectrum. -/
theorem flushed_model (c : Dev nD) (t : Fin cfg0.N) :
    (dats m 0 c).flushed 10 t = ((cfg0.win 10).blk t).view.read (Elt Ideal) (modelOf m c) := by
  obtain ⟨-, -, -, -, -, -, -, -, -, -, ⟨e0, e1⟩⟩ := Blocks.idx_facts t
  show (cfg0.win 10).cut (grid0.coords t) ((dats m 0 c).after 10 t) = _
  rw [after0_10, Chain.outs_model]
  refine funext fun (y : S1024x256.Idx) => ?_
  obtain ⟨p, q, rfl⟩ : ∃ (p : Fin 1024) (q : Fin 256), y = ix2 p q := ⟨y 0, y 1, eq_ix2 y⟩
  rw [View.read_apply]
  refine (Chain.model_at m c t p q).trans ?_
  have hr : ((((cfg0.win 10).blk t).view.emb (ix2 p q)) 0 : Fin 262144) = Spec.pix (Blocks.tileOf t) p :=
    Fin.ext (by show win0_10.index t (0 : Fin 2) * 1024 + 1 * p.val = t.val * 1024 + p.val; rw [e0]; omega)
  have hq : ((((cfg0.win 10).blk t).view.emb (ix2 p q)) 1 : Fin 256) = q :=
    Fin.ext (by show win0_10.index t (1 : Fin 2) * 256 + 1 * q.val = q.val; rw [e1]; omega)
  exact (congrArg₂ (Spec.model (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8))) hr hq).symm

/-- An index of the model array is in point t's block iff each coordinate is in the block's range. -/
theorem mem_blk_model (t : Fin cfg0.N) (i : S262144x256.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v7_1).slice (win0_10.rect t)).set ↔ _
  rw [View.set_slice_whole, Rect.mem_set_unit]
  exact Iff.rfl

/-- Row r of the model array is in the block of point r / 1024. -/
theorem cover_model (i : S262144x256.Idx) :
    ∃ t : Fin cfg0.N, (cfg0.win 10).flush t = true ∧ i ∈ ((cfg0.win 10).blk t).view.set := by
  have hi0 : (i 0).val < 262144 := (i 0).isLt
  have hi1 : (i 1).val < 256 := (i 1).isLt
  have hN : cfg0.N = 256 := N_0
  obtain ⟨t, ht⟩ : ∃ t : Fin cfg0.N, t.val = (i 0).val / 1024 := ⟨⟨(i 0).val / 1024, by rw [hN]; omega⟩, rfl⟩
  obtain ⟨-, -, -, -, -, -, -, -, -, -, ⟨e0, e1⟩⟩ := Blocks.idx_facts t
  refine ⟨t, flush0_10 t, ?_⟩
  rw [mem_blk_model]
  intro a
  match a with
  | ⟨0, _⟩ =>
    show win0_10.index t (0 : Fin 2) * 1024 ≤ (i 0).val ∧ (i 0).val < win0_10.index t (0 : Fin 2) * 1024 + 1024
    rw [e0, ht]; omega
  | ⟨1, _⟩ =>
    show win0_10.index t (1 : Fin 2) * 256 ≤ (i 1).val ∧ (i 1).val < win0_10.index t (1 : Fin 2) * 256 + 256
    rw [e1]; omega

/-- The model array after the run. -/
theorem final_model (c : Dev nD) : (dats m 0 c).arrAt 10 cfg0.N = modelOf m c :=
  (dats m 0 c).arrAt_eq_of_cover 10 (modelOf m c) (fun t _ => flushed_model m c t) cover_model

/-! ## The objective -/

/-- The terms of all 256 tiles, summed over the range or over the tiles. -/
theorem sum_terms (c : Dev nD) :
    ∑ t ∈ Finset.range (255 + 1), Chain.term m c t = ∑ t : Fin 256, Spec.tileTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) t := by
  rw [show (255 + 1 : ℕ) = 256 from rfl, Finset.sum_range]
  refine Finset.sum_congr rfl fun t _ => ?_
  unfold Chain.term
  rw [dif_pos t.isLt]

/-- The one write-back of the accumulator, after the last point, writes the objective. -/
theorem flushed_total (c : Dev nD) (t : Fin cfg0.N) (hf : (cfg0.win 9).flush t = true) :
    (dats m 0 c).flushed 9 t = ((cfg0.win 9).blk t).view.read (Elt Ideal) (totalBlk m c) := by
  have hN : cfg0.N = 256 := N_0
  have h255 : t.val = 255 := by have := (flush0_9 t).mp hf; have := t.isLt; omega
  show (cfg0.win 9).cut (grid0.coords t) ((dats m 0 c).after 9 t) = _
  rw [after0_9]
  refine funext fun (y : S1x1.Idx) => ?_
  obtain rfl : y = ix2 (0 : Fin 1) (0 : Fin 1) := funext fun a => Fin.ext (by
    match a with
    | ⟨0, _⟩ => exact Nat.lt_one_iff.mp (y 0).isLt
    | ⟨1, _⟩ => exact Nat.lt_one_iff.mp (y 1).isLt)
  rw [View.read_apply]
  show (outsAt0 m c t.val t.isLt).1 (ix2 (0 : Fin 1) (0 : Fin 1)) = totalOf m c
  rw [Chain.outs_acc m c t.val t.isLt, h255, sum_terms]
  exact Cert.Objective.tiles_total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- An index of the one-by-one array is in the block of any point. -/
theorem mem_blk_total (t : Fin cfg0.N) (i : S1x1.Idx) :
    i ∈ ((cfg0.win 9).blk t).view.set ↔ ∀ a : Fin 2, win0_9.index t a * S1x1.size a ≤ (i a).val ∧ (i a).val < win0_9.index t a * S1x1.size a + S1x1.size a := by
  show i ∈ ((View.whole main_v7_0).slice (win0_9.rect t)).set ↔ _
  rw [View.set_slice_whole, Rect.mem_set_unit]
  exact Iff.rfl

theorem cover_total (i : S1x1.Idx) :
    ∃ t : Fin cfg0.N, (cfg0.win 9).flush t = true ∧ i ∈ ((cfg0.win 9).blk t).view.set := by
  have hi0 : (i 0).val < 1 := (i 0).isLt
  have hi1 : (i 1).val < 1 := (i 1).isLt
  have hN : cfg0.N = 256 := N_0
  obtain ⟨t, ht⟩ : ∃ t : Fin cfg0.N, t.val = 255 := ⟨⟨255, by rw [hN]; omega⟩, rfl⟩
  obtain ⟨-, -, -, -, -, -, -, -, -, ⟨e0, e1⟩, -⟩ := Blocks.idx_facts t
  refine ⟨t, (flush0_9 t).mpr (by rw [ht]), ?_⟩
  rw [mem_blk_total]
  intro a
  match a with
  | ⟨0, _⟩ =>
    show win0_9.index t (0 : Fin 2) * 1 ≤ (i 0).val ∧ (i 0).val < win0_9.index t (0 : Fin 2) * 1 + 1
    rw [e0]; omega
  | ⟨1, _⟩ =>
    show win0_9.index t (1 : Fin 2) * 1 ≤ (i 1).val ∧ (i 1).val < win0_9.index t (1 : Fin 2) * 1 + 1
    rw [e1]; omega

/-- The one-by-one array after the run. -/
theorem final_total (c : Dev nD) : (dats m 0 c).arrAt 9 cfg0.N = totalBlk m c :=
  (dats m 0 c).arrAt_eq_of_cover 9 (totalBlk m c) (flushed_total m c) cover_total

/-- The reshape after the region reads the one entry: the scalar result is the objective. -/
theorem tail_total (c : Dev nD) :
    Pipeline.afterTail₀ cfgs (dats m) 0 (V0 m) [hostOps1] c main_v8 = (fun _ => totalOf m c) := by
  have hW : Pipeline.withArrays (cfgs 0).spec c (V0 m c) (fun w => (dats m 0 c).arrAt w (cfgs 0).N) (Proc.devRef .tc main_v7_0)
      = totalBlk m c :=
    (Pipeline.withArrays_arr spec0 launch0.win.arr_inj c _ _ 9).trans (final_total m c)
  unfold Pipeline.afterTail₀
  show StableHlo.after hostOps1 _ (Proc.devRef .tc main_v8) = _
  after_results
  rw [hW]
  rfl

/-! ## The run, read -/

theorem run : θ_run defs (onTc (τ := τ) (main (F := Ideal))) ⟨m, fun _ => 0, ρ⟩ fun r => ∀ c : Dev nD,
      r.2.mem ((c.tc : Thread nD τ).loc main_v8) = (fun _ => totalOf m c)
      ∧ r.2.mem ((c.tc : Thread nD τ).loc main_v7_1) = modelOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨
      ((h c).2 main_v8 (Pipeline.mem_restRefs_of main_v8 (by decide) (by decide))).trans (tail_total m c),
      ((h c).1 10).trans (final_model m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Result

end
-- ==== Proof.RefSpec.lean ====
/-
  The reference program read as the specification.

  Each operation of the reference writes an array; read at an index, the arrays it computes are, in order: the
  emissivity e(r,c), the Planck radiance B(r,c), the ambient radiance X(r,c), the modelled spectrum
  s(r,c) = e * B + (1 - e) * X, the second differences (D beta)[r,j], the four per-pixel sums (each carrying the zero
  word it starts from), and the objective.  The only differences in spelling are the cube, written (w * w) * w by the
  reference and w * (w * w) by the specification, and the numeral 1 subtracted from the exponential, which is the
  float word one.
-/
import proofs.«160448_j47175920779637_1_alg».proof.Proof.Spec
import proofs.«160448_j47175920779637_1_alg».proof.Proof.Consts
import proofs.«160448_j47175920779637_1_alg».proof.Proof.Gen.ReferenceIdeal.Read
import Idealize.ShloMosaic.Lib.ValueIdx
import Idealize.ShloMosaic.PureOps.Ideal.Laws

noncomputable section

namespace Cert.RefSpec

open Cert.ReferenceIdeal Cert.ReferenceIdeal.Read Cert.Spec Idealize.ShloMosaic Idealize.ShloMosaic.ValueIdx

/-! ## Sums over the pixels' index set -/

/-- The index set of a vector of 262144 entries is its one coordinate's range … -/
def pixEquiv : (⟨1, ![262144]⟩ : Shape).Idx ≃ Fin 262144 where
  toFun i := i 0
  invFun r := ix1 r
  left_inv i := (eq_ix1 i).symm
  right_inv _ := rfl

/-- … so a sum over it is the sum over the coordinate. -/
theorem sum_pix (f : (⟨1, ![262144]⟩ : Shape).Idx → EReal) : ∑ i, f i = ∑ r : Fin 262144, f (ix1 r) := by
  rw [← Equiv.sum_comp pixEquiv.symm f]
  rfl

section
variable (x0 : (⟨S262144x256, .f32⟩ : BufTy).Contents (Elt Ideal)) (x1 : (⟨S262144, .f32⟩ : BufTy).Contents (Elt Ideal))
  (x2 : (⟨S262144x24, .f32⟩ : BufTy).Contents (Elt Ideal)) (x3 : (⟨S262144, .f32⟩ : BufTy).Contents (Elt Ideal))
  (x4 x5 : (⟨S256, .f32⟩ : BufTy).Contents (Elt Ideal)) (x6 : (⟨S256x24, .f32⟩ : BufTy).Contents (Elt Ideal))
  (x7 : (⟨S22x24, .f32⟩ : BufTy).Contents (Elt Ideal)) (x8 : (⟨S256, .f32⟩ : BufTy).Contents (Elt Ideal))

/-! ## The entry (r, c) of each intermediate array -/

/-- The product of the coefficients with the transposed basis is the emissivity. -/
theorem emis_at (r : Fin 262144) (c : Fin 256) : val_main_v1 (F := Ideal) x2 x6 (ix2 r c) = emis x2 x6 r c := by
  rw [val_main_v1_apply]
  unfold emis
  refine Finset.sum_congr rfl fun k _ => ?_
  rw [val_main_v0_apply]
  have el : lidx_main_v1 (ix2 r c) k = ix2 r k :=
    funext fun a => Fin.ext (by match a with | ⟨0, _⟩ => rfl | ⟨1, _⟩ => rfl)
  have er : idx_main_v0 (ridx_main_v1 (ix2 r c) k) = ix2 c k :=
    funext fun a => Fin.ext (by match a with | ⟨0, _⟩ => rfl | ⟨1, _⟩ => rfl)
  rw [el, er]

/-- The product of the coefficients with the transposed difference matrix is the second difference. -/
theorem curv_at (r : Fin 262144) (j : Fin 22) : val_main_v40 (F := Ideal) x2 x7 (ix2 r j) = curv x2 x7 r j := by
  rw [val_main_v40_apply]
  unfold curv
  refine Finset.sum_congr rfl fun k _ => ?_
  rw [val_main_v39_apply]
  have el : lidx_main_v40 (ix2 r j) k = ix2 r k :=
    funext fun a => Fin.ext (by match a with | ⟨0, _⟩ => rfl | ⟨1, _⟩ => rfl)
  have er : idx_main_v39 (ridx_main_v40 (ix2 r j) k) = ix2 j k :=
    funext fun a => Fin.ext (by match a with | ⟨0, _⟩ => rfl | ⟨1, _⟩ => rfl)
  rw [el, er]

/-- The Planck radiance: the reference cubes the wavenumber as (w * w) * w and subtracts the numeral 1. -/
theorem planck_at (r : Fin 262144) (c : Fin 256) : val_main_v16 (F := Ideal) x1 x8 (ix2 r c) = planck x1 x8 r c := by
  have e1 : idx_main_v9 (idx_main_v15 (ix2 r c)) = ix1 c := funext fun a => Fin.ext (by match a with | ⟨0, _⟩ => rfl)
  have e2 : idx_main_v2 (idx_main_v6 (ix2 r c)) = ix1 c := funext fun a => Fin.ext (by match a with | ⟨0, _⟩ => rfl)
  have e3 : idx_main_v5 (idx_main_v7 (ix2 r c)) = ix1 r := funext fun a => Fin.ext (by match a with | ⟨0, _⟩ => rfl)
  simp only [val_main_v16_apply, val_main_v15_apply, val_main_v13_apply, val_main_v12_apply, val_main_cst_0_apply,
    val_main_v11_apply, val_main_v10_apply, val_main_v9_apply, val_main_v14_apply, val_main_v8_apply, val_main_v6_apply,
    val_main_v4_apply, val_main_v3_apply, val_main_cst_apply, val_main_v2_apply, val_main_v7_apply, val_main_v5_apply,
    e1, e2, e3, Ideal.hostDivf_def, Ideal.mulf_def, Ideal.hostUnary_expm1_def, Ideal.ofBits_def]
  unfold planck
  rw [show (one : EReal) = 1 from Cert.Consts.ofBits_one, mul_comm (x8 (ix1 c) * x8 (ix1 c)) (x8 (ix1 c))]

/-- The ambient radiance. -/
theorem ambient_at (r : Fin 262144) (c : Fin 256) :
    val_main_v28 (F := Ideal) x3 x4 x5 (ix2 r c) = ambient x3 x4 x5 r c := by
  have e1 : idx_main_v17 (idx_main_v19 (ix2 r c)) = ix1 r := funext fun a => Fin.ext (by match a with | ⟨0, _⟩ => rfl)
  have e2 : idx_main_v18 (idx_main_v20 (ix2 r c)) = ix1 c := funext fun a => Fin.ext (by match a with | ⟨0, _⟩ => rfl)
  have e3 : idx_main_v17 (idx_main_v25 (ix2 r c)) = ix1 r := funext fun a => Fin.ext (by match a with | ⟨0, _⟩ => rfl)
  have e4 : idx_main_v24 (idx_main_v26 (ix2 r c)) = ix1 c := funext fun a => Fin.ext (by match a with | ⟨0, _⟩ => rfl)
  simp only [val_main_v28_apply, val_main_v21_apply, val_main_v19_apply, val_main_v17_apply, val_main_v20_apply,
    val_main_v18_apply, val_main_v27_apply, val_main_v25_apply, val_main_v23_apply, val_main_v22_apply,
    val_main_cst_1_apply, val_main_v26_apply, val_main_v24_apply,
    e1, e2, e3, e4, Ideal.addf_def, Ideal.mulf_def, Ideal.subf_def, Ideal.ofBits_def]
  rfl

/-- The modelled spectrum. -/
theorem model_at (r : Fin 262144) (c : Fin 256) :
    val_main_v33 (F := Ideal) x1 x2 x3 x4 x5 x6 x8 (ix2 r c) = model x1 x2 x3 x4 x5 x6 x8 r c := by
  simp only [val_main_v33_apply, val_main_v29_apply, val_main_v32_apply, val_main_v31_apply, val_main_v30_apply,
    val_main_cst_2_apply, emis_at, planck_at, ambient_at, Ideal.addf_def, Ideal.mulf_def, Ideal.subf_def, Ideal.ofBits_def]
  rfl

/-- The reference's second result is the modelled spectrum. -/
theorem ref_model : val_main_v33 (F := Ideal) x1 x2 x3 x4 x5 x6 x8 = modelArr x1 x2 x3 x4 x5 x6 x8 := by
  funext i
  obtain ⟨r, c, rfl⟩ : ∃ (r : Fin 262144) (c : Fin 256), i = ix2 r c := ⟨i 0, i 1, eq_ix2 i⟩
  rw [model_at]
  rfl

/-! ## The four per-pixel sums, each with the zero word it starts from -/

theorem rowRes_at (r : Fin 262144) :
    val_main_v36 (F := Ideal) x0 x1 x2 x3 x4 x5 x6 x8 (ix1 r) = Z + rowRes x0 x1 x2 x3 x4 x5 x6 x8 r := by
  have e : ∀ k : Fin 256, idx_main_v36 (ix1 r) k = ix2 r k := fun k =>
    funext fun a => Fin.ext (by match a with | ⟨0, _⟩ => rfl | ⟨1, _⟩ => rfl)
  simp only [val_main_v36_apply, val_main_cst_3_apply, e, val_main_v35_apply, val_main_v34_apply, model_at,
    Ideal.mulf_def, Ideal.subf_def, Ideal.ofBits_def]
  rfl

theorem rowCurv_at (r : Fin 262144) : val_main_v42 (F := Ideal) x2 x7 (ix1 r) = Z + rowCurv x2 x7 r := by
  have e : ∀ k : Fin 22, idx_main_v42 (ix1 r) k = ix2 r k := fun k =>
    funext fun a => Fin.ext (by match a with | ⟨0, _⟩ => rfl | ⟨1, _⟩ => rfl)
  simp only [val_main_v42_apply, val_main_cst_6_apply, e, val_main_v41_apply, curv_at, Ideal.mulf_def, Ideal.ofBits_def]
  rfl

theorem rowLo_at (r : Fin 262144) : val_main_v49 (F := Ideal) x2 x6 (ix1 r) = Z + rowLo x2 x6 r := by
  have e : ∀ k : Fin 256, idx_main_v49 (ix1 r) k = ix2 r k := fun k =>
    funext fun a => Fin.ext (by match a with | ⟨0, _⟩ => rfl | ⟨1, _⟩ => rfl)
  simp only [val_main_v49_apply, val_main_cst_11_apply, e, val_main_v48_apply, val_main_v47_apply, val_main_v46_apply,
    val_main_cst_10_apply, val_main_call0_v0_apply, val_main_call0_cst_apply, emis_at,
    Ideal.maximumf_def, Ideal.subf_def, Ideal.ofBits_def]
  rfl

theorem rowHi_at (r : Fin 262144) : val_main_v55 (F := Ideal) x2 x6 (ix1 r) = Z + rowHi x2 x6 r := by
  have e : ∀ k : Fin 256, idx_main_v55 (ix1 r) k = ix2 r k := fun k =>
    funext fun a => Fin.ext (by match a with | ⟨0, _⟩ => rfl | ⟨1, _⟩ => rfl)
  simp only [val_main_v55_apply, val_main_cst_15_apply, e, val_main_v54_apply, val_main_v53_apply, val_main_v52_apply,
    val_main_cst_14_apply, val_main_call1_v0_apply, val_main_call1_cst_apply, emis_at,
    Ideal.maximumf_def, Ideal.subf_def, Ideal.ofBits_def]
  rfl

/-! ## The objective -/

/-- The reference's first result is the objective, at its one index. -/
theorem ref_total : val_main_v61 (F := Ideal) x0 x1 x2 x3 x4 x5 x6 x7 x8 = fun _ => total x0 x1 x2 x3 x4 x5 x6 x7 x8 := by
  funext i
  simp only [val_main_v61_apply, val_main_v59_apply, val_main_v38_apply, val_main_v37_apply, val_main_cst_4_apply,
    val_main_cst_5_apply, val_main_v45_apply, val_main_cst_9_apply, val_main_v44_apply, val_main_v43_apply,
    val_main_cst_7_apply, val_main_cst_8_apply, val_main_v60_apply, val_main_cst_18_apply, val_main_v58_apply,
    val_main_v51_apply, val_main_v50_apply, val_main_cst_12_apply, val_main_cst_13_apply, val_main_v57_apply,
    val_main_v56_apply, val_main_cst_16_apply, val_main_cst_17_apply,
    sum_pix, rowRes_at, rowCurv_at, rowLo_at, rowHi_at,
    Ideal.addf_def, Ideal.mulf_def, Ideal.hostDivf_def, Ideal.ofBits_def]
  rfl

end

end Cert.RefSpec

end
-- ==== Proof.lean ====
/-
  A radiance decomposition's forward model and objective, computed by a tiled kernel, against the plain array program.

  For 262144 pixels and 256 spectral channels both programs compute the modelled spectrum
      s(r,c) = e(r,c) * B(r,c) + (1 - e(r,c)) * X(r,c)
  (emissivity from spline coefficients, Planck radiance, ambient radiance) and the objective
      mean_r sum_c (obs - s)^2 + 1/2 mean_r sum_j (D beta)[r,j]^2 + 10 (mean_r sum_c max(lo - e, 0) + mean_r sum_c max(e - hi, 0)).
  The kernel walks 256 tiles of 1024 pixels: each tile writes its block of s and adds (tile residual)/n
  + (1/(2n)) (tile curvature) + (10/n) (tile bound violations) to a running scalar that the first tile starts from zero.
  Read over the extended reals the two agree: the spectrum entry by entry (the kernel's exp(x) - 1 is the reference's
  expm1(x); a product in reduced precision is the exact product), the objective because a finite nonnegative scalar
  distributes over any sum of extended reals and a sum over all pixels is the sum over tiles of the sums inside a tile.
  No finiteness of the data is used.  The ideal pass rewrote nothing, so the kernel's idealization is its own text.
-/
import proofs.«160448_j47175920779637_1_alg».proof.Defs
import proofs.«160448_j47175920779637_1_alg».proof.Proof.Gen.Kernel
import proofs.«160448_j47175920779637_1_alg».proof.Proof.Gen.Kernel.Skeleton
import proofs.«160448_j47175920779637_1_alg».proof.Proof.Gen.Kernel.Launch
import proofs.«160448_j47175920779637_1_alg».proof.Proof.Gen.Kernel.Points
import proofs.«160448_j47175920779637_1_alg».proof.Proof.Gen.Kernel.Frame
import proofs.«160448_j47175920779637_1_alg».proof.Proof.Gen.KernelIdeal
import proofs.«160448_j47175920779637_1_alg».proof.Proof.Gen.KernelIdeal.Skeleton
import proofs.«160448_j47175920779637_1_alg».proof.Proof.Gen.KernelIdeal.Launch
import proofs.«160448_j47175920779637_1_alg».proof.Proof.Gen.KernelIdeal.Points
import proofs.«160448_j47175920779637_1_alg».proof.Proof.Gen.KernelIdeal.Frame
import proofs.«160448_j47175920779637_1_alg».proof.Proof.Gen.ReferenceIdeal
import proofs.«160448_j47175920779637_1_alg».proof.Proof.Gen.ReferenceIdeal.Run
import proofs.«160448_j47175920779637_1_alg».proof.Proof.Gen.ReferenceIdeal.Read
import proofs.«160448_j47175920779637_1_alg».proof.Proof.Gen.Pre_finite_inputs
import proofs.«160448_j47175920779637_1_alg».proof.Proof.KValue
import proofs.«160448_j47175920779637_1_alg».proof.Proof.RefSpec
import Idealize.ShloMosaic.Adequacy
import Idealize.ShloMosaic.Init

noncomputable section

namespace Cert.Proof

open Idealize.ShloMosaic Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both idealized programs end with the objective and the modelled spectrum of the same arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => fun _ => Cert.KernelIdeal.Result.totalOf m c, fun c => Cert.KernelIdeal.Result.modelOf m c,
    Cert.KernelIdeal.Result.run m ρ, ?_⟩
  refine (θ_run Cert.ReferenceIdeal.defs _ _).mono (fun _ h c => ?_) (Cert.ReferenceIdeal.Value.run (F := Ideal) m' ρ')
  obtain ⟨e0, e1, e2, e3, e4, e5, e6, e7, e8⟩ := hagree c
  refine ⟨(h c).1.trans ?_, (h c).2.1.trans ((Cert.ReferenceIdeal.Read.val_main_v33_eq _ _ _ _ _ _ _).trans ?_), (h c).2.2⟩
  · show _ = fun _ => Cert.KernelIdeal.Result.totalOf m c
    rw [Cert.ReferenceIdeal.Read.val_main_v61_eq, Cert.RefSpec.ref_total, e0, e1, e2, e3, e4, e5, e6, e7, e8]
    rfl
  · show _ = Cert.KernelIdeal.Result.modelOf m c
    rw [Cert.RefSpec.ref_model, e1, e2, e3, e4, e5, e6, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
